-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S50000x64 : Shape := ⟨2, ![50000, 64]⟩
abbrev S1000000 : Shape := ⟨1, ![1000000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg18 : FVec F S64x2 .f32) (main_arg19 : FVec F S2 .f32) (main_v63 : IVec S_ 1) (main_v67 : IVec S_ 1) : IVec S_ 1 :=
  let main_v68 : IVec S_ 1 := andi main_v63 main_v67
  let main_v69 : FVec F S64x2 .f32 := Host.absf main_arg18
  let main_cst_26 : FVec F S_ .f32 := constant S_ .f32 0x7F800000#32
  let main_v70 : FVec F S64x2 .f32 := broadcastInDim S64x2 ![] bcast_S_S64x2 main_cst_26
  let main_v71 : IVec S64x2 1 := cmpf .olt main_v69 main_v70
  let main_c_27 : IVec S_ 1 := constantI S_ 1 1#1
  let main_v72 : IVec S_ 1 := (fun x v => Host.reduce IntOp.andi x v reducesTo_S64x2_S_d0_1 h_S_) main_v71 main_c_27
  let main_v73 : IVec S_ 1 := andi main_v68 main_v72
  let main_v74 : FVec F S2 .f32 := Host.absf main_arg19
  let main_cst_28 : FVec F S_ .f32 := constant S_ .f32 0x7F800000#32
  let main_v75 : FVec F S2 .f32 := broadcastInDim S2 ![] bcast_S_S2 main_cst_28
  let main_v76 : IVec S2 1 := cmpf .olt main_v74 main_v75
  let main_c_29 : IVec S_ 1 := constantI S_ 1 1#1
  let main_v77 : IVec S_ 1 := (fun x v => Host.reduce IntOp.andi x v reducesTo_S2_S_d0 h_S_) main_v76 main_c_29
  let main_v78 : IVec S_ 1 := andi main_v73 main_v77
  main_v78

def fn_part3 {F : FTy → Type} [FloatOps F] (main_arg15 : FVec F S64x64 .f32) (main_arg16 : FVec F S64x64 .f32) (main_arg17 : FVec F S64 .f32) (main_arg18 : FVec F S64x2 .f32) (main_arg19 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg15
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64x64 .f32 := Host.absf main_arg16
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg17
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg18 main_arg19 main_v63 main_v67

def fn_part2 {F : FTy → Type} [FloatOps F] (main_arg11 : FVec F S64 .f32) (main_arg12 : FVec F S64x64 .f32) (main_arg13 : FVec F S64x64 .f32) (main_arg14 : FVec F S64 .f32) (main_arg15 : FVec F S64x64 .f32) (main_arg16 : FVec F S64x64 .f32) (main_arg17 : FVec F S64 .f32) (main_arg18 : FVec F S64x2 .f32) (main_arg19 : FVec F S2 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg12
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg13
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg14
  let main_cst_18 : FVec F S_ .f32 := constant S_ .f32 0x7F800000#32
  let main_v50 : FVec F S64 .f32 := broadcastInDim S64 ![] bcast_S_S64 main_cst_18
  fn_part3 (F := F) main_arg15 main_arg16 main_arg17 main_arg18 main_arg19 main_v48 main_v49 main_v50

def fn_part1 {F : FTy → Type} [FloatOps F] (main_arg8 : FVec F S64 .f32) (main_arg9 : FVec F S64x64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64x64 .f32) (main_arg17 : FVec F S64 .f32) (main_arg18 : FVec F S64x2 .f32) (main_arg19 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg9
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg10
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg11 main_arg12 main_arg13 main_arg14 main_arg15 main_arg16 main_arg17 main_arg18 main_arg19 main_v33

def fn {F : FTy → Type} [FloatOps F] (main_arg0 : FVec F S200000x64 .f32) (main_arg1 : FVec F S50000x64 .f32) (main_arg2 : IVec S1000000 32) (main_arg3 : IVec S1000000 32) (main_arg4 : IVec S1000000 32) (main_arg5 : IVec S1000000 32) (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S64x64 .f32) (main_arg13 : FVec F S64x64 .f32) (main_arg14 : FVec F S64 .f32) (main_arg15 : FVec F S64x64 .f32) (main_arg16 : FVec F S64x64 .f32) (main_arg17 : FVec F S64 .f32) (main_arg18 : FVec F S64x2 .f32) (main_arg19 : FVec F S2 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg6
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg7
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg8 main_arg9 main_arg10 main_arg11 main_arg12 main_arg13 main_arg14 main_arg15 main_arg16 main_arg17 main_arg18 main_arg19 main_v13 main_v16
-- ==== Kernel.lean ====
abbrev S200000x64 : Shape := ⟨2, ![200000, 64]⟩
abbrev S50000x64 : Shape := ⟨2, ![50000, 64]⟩
abbrev S1000000 : Shape := ⟨1, ![1000000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩
abbrev S1000000x1 : Shape := ⟨2, ![1000000, 1]⟩
abbrev S1000000x64 : Shape := ⟨2, ![1000000, 64]⟩
abbrev S50000x1 : Shape := ⟨2, ![50000, 1]⟩
abbrev S1x64 : Shape := ⟨2, ![1, 64]⟩
abbrev S5000x64 : Shape := ⟨2, ![5000, 64]⟩
abbrev S200000x1 : Shape := ⟨2, ![200000, 1]⟩
abbrev S1x2 : Shape := ⟨2, ![1, 2]⟩
abbrev S200000x2 : Shape := ⟨2, ![200000, 2]⟩
abbrev S5000x2 : Shape := ⟨2, ![5000, 2]⟩

abbrev nBuf : Space → Nat
  | .hbm => 100
  | .vmem => 33
  | .smem => 0
  | _ => 0

abbrev bufTy : (tb : Table) → Fin (tcTables nBuf tb) → BufTy
  | .hbm, ⟨0, _⟩ => ⟨S200000x64, .f32⟩
  | .hbm, ⟨1, _⟩ => ⟨S50000x64, .f32⟩
  | .hbm, ⟨2, _⟩ => ⟨S1000000, .i32⟩
  | .hbm, ⟨3, _⟩ => ⟨S1000000, .i32⟩
  | .hbm, ⟨4, _⟩ => ⟨S1000000, .i32⟩
  | .hbm, ⟨5, _⟩ => ⟨S1000000, .i32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64x64, .f32⟩
  | .hbm, ⟨17, _⟩ => ⟨S64, .f32⟩
  | .hbm, ⟨18, _⟩ => ⟨S64x2, .f32⟩
  | .hbm, ⟨19, _⟩ => ⟨S2, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x64, .f32⟩
  | .hbm, ⟨29, _⟩ => ⟨S_, .f32⟩
  | .hbm, ⟨30, _⟩ => ⟨S50000x64, .f32⟩
  | .hbm, ⟨31, _⟩ => ⟨S1000000x1, .i32⟩
  | .hbm, ⟨32, _⟩ => ⟨S50000x64, .f32⟩
  | .hbm, ⟨33, _⟩ => ⟨S_, .f32⟩
  | .hbm, ⟨34, _⟩ => ⟨S1000000x1, .f32⟩
  | .hbm, ⟨35, _⟩ => ⟨S_, .f32⟩
  | .hbm, ⟨36, _⟩ => ⟨S50000x1, .f32⟩
  | .hbm, ⟨37, _⟩ => ⟨S1000000x1, .i32⟩
  | .hbm, ⟨38, _⟩ => ⟨S50000x1, .f32⟩
  | .hbm, ⟨39, _⟩ => ⟨S_, .f32⟩
  | .hbm, ⟨40, _⟩ => ⟨S50000x1, .f32⟩
  | .hbm, ⟨41, _⟩ => ⟨S50000x1, .f32⟩
  | .hbm, ⟨42, _⟩ => ⟨S50000x64, .f32⟩
  | .hbm, ⟨43, _⟩ => ⟨S50000x64, .f32⟩
  | .hbm, ⟨44, _⟩ => ⟨S1x64, .f32⟩
  | .hbm, ⟨45, _⟩ => ⟨S50000x64, .f32⟩
  | .hbm, ⟨46, _⟩ => ⟨S_, .i32⟩
  | .hbm, ⟨47, _⟩ => ⟨S1000000, .i32⟩
  | .hbm, ⟨48, _⟩ => ⟨S1000000, .i1⟩
  | .hbm, ⟨49, _⟩ => ⟨S_, .i32⟩
  | .hbm, ⟨50, _⟩ => ⟨S1000000, .i32⟩
  | .hbm, ⟨51, _⟩ => ⟨S1000000, .i32⟩
  | .hbm, ⟨52, _⟩ => ⟨S1000000, .i32⟩
  | .hbm, ⟨53, _⟩ => ⟨S1000000x1, .i32⟩
  | .hbm, ⟨54, _⟩ => ⟨S1000000x64, .f32⟩
  | .hbm, ⟨55, _⟩ => ⟨S_, .f32⟩
  | .hbm, ⟨56, _⟩ => ⟨S200000x64, .f32⟩
  | .hbm, ⟨57, _⟩ => ⟨S1000000x1, .i32⟩
  | .hbm, ⟨58, _⟩ => ⟨S200000x64, .f32⟩
  | .hbm, ⟨59, _⟩ => ⟨S_, .f32⟩
  | .hbm, ⟨60, _⟩ => ⟨S1000000x1, .f32⟩
  | .hbm, ⟨61, _⟩ => ⟨S_, .f32⟩
  | .hbm, ⟨62, _⟩ => ⟨S200000x1, .f32⟩
  | .hbm, ⟨63, _⟩ => ⟨S1000000x1, .i32⟩
  | .hbm, ⟨64, _⟩ => ⟨S200000x1, .f32⟩
  | .hbm, ⟨65, _⟩ => ⟨S_, .f32⟩
  | .hbm, ⟨66, _⟩ => ⟨S200000x1, .f32⟩
  | .hbm, ⟨67, _⟩ => ⟨S200000x1, .f32⟩
  | .hbm, ⟨68, _⟩ => ⟨S200000x64, .f32⟩
  | .hbm, ⟨69, _⟩ => ⟨S200000x64, .f32⟩
  | .hbm, ⟨70, _⟩ => ⟨S1x64, .f32⟩
  | .hbm, ⟨71, _⟩ => ⟨S200000x64, .f32⟩
  | .hbm, ⟨72, _⟩ => ⟨S_, .i32⟩
  | .hbm, ⟨73, _⟩ => ⟨S1000000, .i32⟩
  | .hbm, ⟨74, _⟩ => ⟨S1000000, .i1⟩
  | .hbm, ⟨75, _⟩ => ⟨S_, .i32⟩
  | .hbm, ⟨76, _⟩ => ⟨S1000000, .i32⟩
  | .hbm, ⟨77, _⟩ => ⟨S1000000, .i32⟩
  | .hbm, ⟨78, _⟩ => ⟨S1000000, .i32⟩
  | .hbm, ⟨79, _⟩ => ⟨S1000000x1, .i32⟩
  | .hbm, ⟨80, _⟩ => ⟨S1000000x64, .f32⟩
  | .hbm, ⟨81, _⟩ => ⟨S_, .f32⟩
  | .hbm, ⟨82, _⟩ => ⟨S200000x64, .f32⟩
  | .hbm, ⟨83, _⟩ => ⟨S1000000x1, .i32⟩
  | .hbm, ⟨84, _⟩ => ⟨S200000x64, .f32⟩
  | .hbm, ⟨85, _⟩ => ⟨S_, .f32⟩
  | .hbm, ⟨86, _⟩ => ⟨S1000000x1, .f32⟩
  | .hbm, ⟨87, _⟩ => ⟨S_, .f32⟩
  | .hbm, ⟨88, _⟩ => ⟨S200000x1, .f32⟩
  | .hbm, ⟨89, _⟩ => ⟨S1000000x1, .i32⟩
  | .hbm, ⟨90, _⟩ => ⟨S200000x1, .f32⟩
  | .hbm, ⟨91, _⟩ => ⟨S_, .f32⟩
  | .hbm, ⟨92, _⟩ => ⟨S200000x1, .f32⟩
  | .hbm, ⟨93, _⟩ => ⟨S200000x1, .f32⟩
  | .hbm, ⟨94, _⟩ => ⟨S200000x64, .f32⟩
  | .hbm, ⟨95, _⟩ => ⟨S200000x64, .f32⟩
  | .hbm, ⟨96, _⟩ => ⟨S1x64, .f32⟩
  | .hbm, ⟨97, _⟩ => ⟨S200000x64, .f32⟩
  | .hbm, ⟨98, _⟩ => ⟨S1x2, .f32⟩
  | .hbm, ⟨99, _⟩ => ⟨S200000x2, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S64x2, .f32⟩
  | .local _ .vmem, ⟨30, _⟩ => ⟨S1x2, .f32⟩
  | .local _ .vmem, ⟨31, _⟩ => ⟨S5000x2, .f32⟩
  | .local _ .vmem, ⟨32, _⟩ => ⟨S5000x2, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_v21 : Ref sig .tc := ⟨.hbm, 48, rfl⟩
abbrev main_c_5 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_6 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_7 : Ref sig .tc := ⟨.hbm, 59, rfl⟩
abbrev main_v30 : Ref sig .tc := ⟨.hbm, 60, rfl⟩
abbrev main_cst_8 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_9 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_10 : Ref sig .tc := ⟨.hbm, 72, rfl⟩
abbrev main_v40 : Ref sig .tc := ⟨.hbm, 73, rfl⟩
abbrev main_v41 : Ref sig .tc := ⟨.hbm, 74, rfl⟩
abbrev main_c_11 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_12 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_13 : Ref sig .tc := ⟨.hbm, 85, rfl⟩
abbrev main_v50 : Ref sig .tc := ⟨.hbm, 86, rfl⟩
abbrev main_cst_14 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_15 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem3_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x2 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x64 : S_.BroadcastsInDim S50000x64 (![] : Fin 0 → Fin S50000x64.rank)
  bcast_S_S1000000x1 : S_.BroadcastsInDim S1000000x1 (![] : Fin 0 → Fin S1000000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S200000x64 : S_.BroadcastsInDim S200000x64 (![] : Fin 0 → Fin S200000x64.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S200000x64_S1000000x1_S1000000x64_1_0_n_n_0_1_164_wf : GatherDims.WF S200000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000x1_S1000000x1_S1000000x1_1_0_0_1_wf : ScatterDims.WF S50000x1 S1000000x1 S1000000x1 [1] [0] [0] 1
  dot_S5000x64_S64x64_S5000x64_1_0_0_1_n_n_wf : DotDims.WF S5000x64 S64x64 S5000x64 [1] [0] [0] [1] [] []
  gather_S50000x64_S1000000x1_S1000000x64_1_0_n_n_0_1_164_wf : GatherDims.WF S50000x64 S1000000x1 S1000000x64 [1] [0] [] [0] [] 1 ![1, 64]
  scatter_S200000x64_S1000000x1_S1000000x64_1_0_0_1_wf : ScatterDims.WF S200000x64 S1000000x1 S1000000x64 [1] [0] [0] 1
  scatter_S200000x1_S1000000x1_S1000000x1_1_0_0_1_wf : ScatterDims.WF S200000x1 S1000000x1 S1000000x1 [1] [0] [0] 1
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S200000x64.size a
  hwx1_1 : ∀ i : grid1.Coords, EltTy.bits .f32 = 32 ∨ (Rect.block (s := S200000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S200000x64.size a
  hwx1_5 : ∀ i : grid1.Coords, EltTy.bits .f32 = 32 ∨ (Rect.block (s := S200000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S200000x64.size a
  hwx2_0 : ∀ i : grid2.Coords, EltTy.bits .f32 = 32 ∨ (Rect.block (s := S200000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S200000x64.size a
  hwx2_1 : ∀ i : grid2.Coords, EltTy.bits .f32 = 32 ∨ (Rect.block (s := S200000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S200000x64.size a
  hwx2_5 : ∀ i : grid2.Coords, EltTy.bits .f32 = 32 ∨ (Rect.block (s := S200000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S200000x64.size a
  hwx3_0 : ∀ i : grid3.Coords, EltTy.bits .f32 = 32 ∨ (Rect.block (s := S200000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x2.size a ≤ S64x2.size a
  hwx3_1 : ∀ i : grid3.Coords, EltTy.bits .f32 = 32 ∨ (Rect.block (s := S64x2) S64x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x2.size a ≤ S200000x2.size a
  hwx3_3 : ∀ i : grid3.Coords, EltTy.bits .f32 = 32 ∨ (Rect.block (s := S200000x2) S5000x2.size (cc3_transform_3 i) (hinb3_3 i)).WholeWords (EltTy.packing .f32)

variable [Facts₀]

def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def scatter_S200000x1_S1000000x1_S1000000x1_1_0_0_1 : ScatterDims S200000x1 S1000000x1 S1000000x1 where
  updateWindowDims := [1]
  insertedWindowDims := [0]
  scatterDimsToOperandDims := [0]
  indexVectorDim := 1
  wf := scatter_S200000x1_S1000000x1_S1000000x1_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_v17) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg15) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg18) S64x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S5000x2.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S200000x64 : Shape := ⟨2, ![200000, 64]⟩
abbrev S50000x64 : Shape := ⟨2, ![50000, 64]⟩
abbrev S1000000 : Shape := ⟨1, ![1000000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩
abbrev S1000000x1 : Shape := ⟨2, ![1000000, 1]⟩
abbrev S1000000x64 : Shape := ⟨2, ![1000000, 64]⟩
abbrev S50000x1 : Shape := ⟨2, ![50000, 1]⟩
abbrev S1x64 : Shape := ⟨2, ![1, 64]⟩
abbrev S200000x1 : Shape := ⟨2, ![200000, 1]⟩
abbrev S200000x2 : Shape := ⟨2, ![200000, 2]⟩
abbrev S1x2 : Shape := ⟨2, ![1, 2]⟩

abbrev nBuf : Space → Nat
  | .hbm => 150
  | .vmem => 0
  | .smem => 0
  | _ => 0

abbrev hbmTy0_0 (i : Nat) : BufTy := match i % 128 with
  | 0 => ⟨S200000x64, .f32⟩
  | 1 => ⟨S50000x64, .f32⟩
  | 2 => ⟨S1000000, .i32⟩
  | 3 => ⟨S1000000, .i32⟩
  | 4 => ⟨S1000000, .i32⟩
  | 5 => ⟨S1000000, .i32⟩
  | 6 => ⟨S64x64, .f32⟩
  | 7 => ⟨S64x64, .f32⟩
  | 8 => ⟨S64, .f32⟩
  | 9 => ⟨S64x64, .f32⟩
  | 10 => ⟨S64x64, .f32⟩
  | 11 => ⟨S64, .f32⟩
  | 12 => ⟨S64x64, .f32⟩
  | 13 => ⟨S64x64, .f32⟩
  | 14 => ⟨S64, .f32⟩
  | 15 => ⟨S64x64, .f32⟩
  | 16 => ⟨S64x64, .f32⟩
  | 17 => ⟨S64, .f32⟩
  | 18 => ⟨S64x2, .f32⟩
  | 19 => ⟨S2, .f32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000x64, .f32⟩
  | 29 => ⟨S_, .f32⟩
  | 30 => ⟨S50000x64, .f32⟩
  | 31 => ⟨S1000000x1, .i32⟩
  | 32 => ⟨S50000x64, .f32⟩
  | 33 => ⟨S_, .f32⟩
  | 34 => ⟨S1000000x1, .f32⟩
  | 35 => ⟨S_, .f32⟩
  | 36 => ⟨S50000x1, .f32⟩
  | 37 => ⟨S1000000x1, .i32⟩
  | 38 => ⟨S50000x1, .f32⟩
  | 39 => ⟨S_, .f32⟩
  | 40 => ⟨S50000x1, .f32⟩
  | 41 => ⟨S50000x1, .f32⟩
  | 42 => ⟨S50000x64, .f32⟩
  | 43 => ⟨S50000x64, .f32⟩
  | 44 => ⟨S50000x64, .f32⟩
  | 45 => ⟨S50000x64, .f32⟩
  | 46 => ⟨S50000x64, .f32⟩
  | 47 => ⟨S1x64, .f32⟩
  | 48 => ⟨S50000x64, .f32⟩
  | 49 => ⟨S50000x64, .f32⟩
  | 50 => ⟨S_, .i32⟩
  | 51 => ⟨S1000000, .i32⟩
  | 52 => ⟨S1000000, .i1⟩
  | 53 => ⟨S_, .i32⟩
  | 54 => ⟨S1000000, .i32⟩
  | 55 => ⟨S1000000, .i32⟩
  | 56 => ⟨S1000000, .i32⟩
  | 57 => ⟨S1000000x1, .i32⟩
  | 58 => ⟨S1000000x64, .f32⟩
  | 59 => ⟨S_, .f32⟩
  | 60 => ⟨S200000x64, .f32⟩
  | 61 => ⟨S1000000x1, .i32⟩
  | 62 => ⟨S200000x64, .f32⟩
  | 63 => ⟨S_, .f32⟩
  | 64 => ⟨S1000000x1, .f32⟩
  | 65 => ⟨S_, .f32⟩
  | 66 => ⟨S200000x1, .f32⟩
  | 67 => ⟨S1000000x1, .i32⟩
  | 68 => ⟨S200000x1, .f32⟩
  | 69 => ⟨S_, .f32⟩
  | 70 => ⟨S200000x1, .f32⟩
  | 71 => ⟨S200000x1, .f32⟩
  | 72 => ⟨S200000x64, .f32⟩
  | 73 => ⟨S200000x64, .f32⟩
  | 74 => ⟨S200000x64, .f32⟩
  | 75 => ⟨S200000x64, .f32⟩
  | 76 => ⟨S200000x64, .f32⟩
  | 77 => ⟨S1x64, .f32⟩
  | 78 => ⟨S200000x64, .f32⟩
  | 79 => ⟨S200000x64, .f32⟩
  | 80 => ⟨S_, .f32⟩
  | 81 => ⟨S50000x64, .f32⟩
  | 82 => ⟨S50000x64, .f32⟩
  | 83 => ⟨S_, .f32⟩
  | 84 => ⟨S200000x64, .f32⟩
  | 85 => ⟨S200000x64, .f32⟩
  | 86 => ⟨S_, .i32⟩
  | 87 => ⟨S1000000, .i32⟩
  | 88 => ⟨S1000000, .i1⟩
  | 89 => ⟨S_, .i32⟩
  | 90 => ⟨S1000000, .i32⟩
  | 91 => ⟨S1000000, .i32⟩
  | 92 => ⟨S1000000, .i32⟩
  | 93 => ⟨S1000000x1, .i32⟩
  | 94 => ⟨S1000000x64, .f32⟩
  | 95 => ⟨S_, .f32⟩
  | 96 => ⟨S50000x64, .f32⟩
  | 97 => ⟨S1000000x1, .i32⟩
  | 98 => ⟨S50000x64, .f32⟩
  | 99 => ⟨S_, .f32⟩
  | 100 => ⟨S1000000x1, .f32⟩
  | 101 => ⟨S_, .f32⟩
  | 102 => ⟨S50000x1, .f32⟩
  | 103 => ⟨S1000000x1, .i32⟩
  | 104 => ⟨S50000x1, .f32⟩
  | 105 => ⟨S_, .f32⟩
  | 106 => ⟨S50000x1, .f32⟩
  | 107 => ⟨S50000x1, .f32⟩
  | 108 => ⟨S50000x64, .f32⟩
  | 109 => ⟨S50000x64, .f32⟩
  | 110 => ⟨S50000x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S_, .i32⟩
  | 117 => ⟨S1000000, .i32⟩
  | 118 => ⟨S1000000, .i1⟩
  | 119 => ⟨S_, .i32⟩
  | 120 => ⟨S1000000, .i32⟩
  | 121 => ⟨S1000000, .i32⟩
  | 122 => ⟨S1000000, .i32⟩
  | 123 => ⟨S1000000x1, .i32⟩
  | 124 => ⟨S1000000x64, .f32⟩
  | 125 => ⟨S_, .f32⟩
  | 126 => ⟨S200000x64, .f32⟩
  | 127 => ⟨S1000000x1, .i32⟩
  | _ => ⟨S200000x64, .f32⟩

abbrev hbmTy0_1 (i : Nat) : BufTy := match i % 128 with
  | 0 => ⟨S200000x64, .f32⟩
  | 1 => ⟨S_, .f32⟩
  | 2 => ⟨S1000000x1, .f32⟩
  | 3 => ⟨S_, .f32⟩
  | 4 => ⟨S200000x1, .f32⟩
  | 5 => ⟨S1000000x1, .i32⟩
  | 6 => ⟨S200000x1, .f32⟩
  | 7 => ⟨S_, .f32⟩
  | 8 => ⟨S200000x1, .f32⟩
  | 9 => ⟨S200000x1, .f32⟩
  | 10 => ⟨S200000x64, .f32⟩
  | 11 => ⟨S200000x64, .f32⟩
  | 12 => ⟨S200000x64, .f32⟩
  | 13 => ⟨S200000x64, .f32⟩
  | 14 => ⟨S200000x64, .f32⟩
  | 15 => ⟨S1x64, .f32⟩
  | 16 => ⟨S200000x64, .f32⟩
  | 17 => ⟨S200000x64, .f32⟩
  | 18 => ⟨S200000x2, .f32⟩
  | 19 => ⟨S1x2, .f32⟩
  | 20 => ⟨S200000x2, .f32⟩
  | 21 => ⟨S200000x2, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_1 : Ref sig .tc := ⟨.hbm, 33, rfl⟩
abbrev main_v10 : Ref sig .tc := ⟨.hbm, 34, rfl⟩
abbrev main_cst_2 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_3 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_4 : Ref sig .tc := ⟨.hbm, 50, rfl⟩
abbrev main_v24 : Ref sig .tc := ⟨.hbm, 51, rfl⟩
abbrev main_v25 : Ref sig .tc := ⟨.hbm, 52, rfl⟩
abbrev main_c_5 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_6 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_7 : Ref sig .tc := ⟨.hbm, 63, rfl⟩
abbrev main_v34 : Ref sig .tc := ⟨.hbm, 64, rfl⟩
abbrev main_cst_8 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_9 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_call0_cst : Ref sig .tc := ⟨.hbm, 80, rfl⟩
abbrev main_call0_v0 : Ref sig .tc := ⟨.hbm, 81, rfl⟩
abbrev main_v48 : Ref sig .tc := ⟨.hbm, 82, rfl⟩
abbrev main_call1_cst : Ref sig .tc := ⟨.hbm, 83, rfl⟩
abbrev main_call1_v0 : Ref sig .tc := ⟨.hbm, 84, rfl⟩
abbrev main_v49 : Ref sig .tc := ⟨.hbm, 85, rfl⟩
abbrev main_c_10 : Ref sig .tc := ⟨.hbm, 86, rfl⟩
abbrev main_v50 : Ref sig .tc := ⟨.hbm, 87, rfl⟩
abbrev main_v51 : Ref sig .tc := ⟨.hbm, 88, rfl⟩
abbrev main_c_11 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_12 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_13 : Ref sig .tc := ⟨.hbm, 99, rfl⟩
abbrev main_v60 : Ref sig .tc := ⟨.hbm, 100, rfl⟩
abbrev main_cst_14 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_15 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_16 : Ref sig .tc := ⟨.hbm, 116, rfl⟩
abbrev main_v74 : Ref sig .tc := ⟨.hbm, 117, rfl⟩
abbrev main_v75 : Ref sig .tc := ⟨.hbm, 118, rfl⟩
abbrev main_c_17 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_18 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_19 : Ref sig .tc := ⟨.hbm, 129, rfl⟩
abbrev main_v84 : Ref sig .tc := ⟨.hbm, 130, rfl⟩
abbrev main_cst_20 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_cst_21 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x64 : S_.BroadcastsInDim S50000x64 (![] : Fin 0 → Fin S50000x64.rank)
  bcast_S_S1000000x1 : S_.BroadcastsInDim S1000000x1 (![] : Fin 0 → Fin S1000000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S200000x64 : S_.BroadcastsInDim S200000x64 (![] : Fin 0 → Fin S200000x64.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  bcast_S1x64_S200000x64_0_1 : S1x64.BroadcastsInDim S200000x64 (![0, 1] : Fin 2 → Fin S200000x64.rank)
  bcast_S2_S1x2_1 : S2.BroadcastsInDim S1x2 (![1] : Fin 1 → Fin S1x2.rank)
  bcast_S1x2_S200000x2_0_1 : S1x2.BroadcastsInDim S200000x2 (![0, 1] : Fin 2 → Fin S200000x2.rank)
  gather_S200000x64_S1000000x1_S1000000x64_1_0_n_n_0_1_164_wf : GatherDims.WF S200000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000x1_S1000000x1_S1000000x1_1_0_0_1_wf : ScatterDims.WF S50000x1 S1000000x1 S1000000x1 [1] [0] [0] 1
  dot_S50000x64_S64x64_S50000x64_1_0_0_1_n_n_wf : DotDims.WF S50000x64 S64x64 S50000x64 [1] [0] [0] [1] [] []
  gather_S50000x64_S1000000x1_S1000000x64_1_0_n_n_0_1_164_wf : GatherDims.WF S50000x64 S1000000x1 S1000000x64 [1] [0] [] [0] [] 1 ![1, 64]
  scatter_S200000x64_S1000000x1_S1000000x64_1_0_0_1_wf : ScatterDims.WF S200000x64 S1000000x1 S1000000x64 [1] [0] [0] 1
  scatter_S200000x1_S1000000x1_S1000000x1_1_0_0_1_wf : ScatterDims.WF S200000x1 S1000000x1 S1000000x1 [1] [0] [0] 1
  dot_S200000x64_S64x64_S200000x64_1_0_0_1_n_n_wf : DotDims.WF S200000x64 S64x64 S200000x64 [1] [0] [0] [1] [] []
  dot_S200000x64_S64x2_S200000x2_1_0_0_1_n_n_wf : DotDims.WF S200000x64 S64x2 S200000x2 [1] [0] [0] [1] [] []

variable [Facts₀]

def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000x1_S1000000x1_S1000000x1_1_0_0_1 : ScatterDims S50000x1 S1000000x1 S1000000x1 where
  updateWindowDims := [1]
  insertedWindowDims := [0]
  scatterDimsToOperandDims := [0]
  indexVectorDim := 1
  wf := scatter_S50000x1_S1000000x1_S1000000x1_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def scatter_S200000x1_S1000000x1_S1000000x1_1_0_0_1 : ScatterDims S200000x1 S1000000x1 S1000000x1 where
  updateWindowDims := [1]
  insertedWindowDims := [0]
  scatterDimsToOperandDims := [0]
  indexVectorDim := 1
  wf := scatter_S200000x1_S1000000x1_S1000000x1_1_0_0_1_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def dot_S200000x64_S64x2_S200000x2_1_0_0_1_n_n : DotDims S200000x64 S64x2 S200000x2 where
  lhsContracting := [1]
  rhsContracting := [0]
  lhsNonContracting := [0]
  rhsNonContracting := [1]
  lhsBatch := []
  rhsBatch := []
  wf := dot_S200000x64_S64x2_S200000x2_1_0_0_1_n_n_wf

class Facts : Prop extends Facts₀ where

variable [Facts]
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.LibRowsProduct.lean ====
/-
  The product of two matrices of extended reals as ONE function of its entries, and the ways a program
  spells it.

  `prod M K N x w` at the entry (r, c) is the sum over k < K of x (r, k) * w (k, c). On the extended reals this sum
  is a sum in a commutative monoid, so it does not depend on an order or a grouping, and nothing needs to be finite.

  * the host's `dot_general` with the plain dimension numbers is `prod`;
  * a `tpu.matmul` of the two operands cast to bf16, into the zero accumulator, is `prod` of the operands
    themselves (at the exact instance a change of float format is the identity);
  * ROW LOCALITY: an entry of the product reads one row of the left operand and one column of the right one, so
    the product of a block of rows with the whole right operand, at an entry of the block, is the product of the
    whole matrices at the entry the block's position sends it to. This is what lets a kernel tile the rows of the
    left operand over a grid and still compute the one product.
  * a row vector [1, N] added to every row (`addRow`), as the kernel spells it (a broadcast along the rows and a sum);
  * the hyperbolic tangent applied entry by entry is the same function whether the kernel's or the host's
    operation spells it.
-/
import Idealize.ShloMosaic.PureOps.Ideal.Laws
import Idealize.ShloMosaic.Lib.ValueIdx
import Idealize.ShloMosaic.Lib.Pipeline.Value
import proofs.«145847_j22033182228530_1_alg».proof.Proof.LibPlainDot

noncomputable section

namespace RowsProduct

open Idealize.ShloMosaic Idealize.ShloMosaic.ValueIdx

variable (M K N : Nat)

/-- The matrix product, entry by entry: at (r, c) the sum over k of x (r, k) * w (k, c). -/
def prod (x : FVec Ideal ⟨2, ![M, K]⟩ .f32) (w : FVec Ideal ⟨2, ![K, N]⟩ .f32) : FVec Ideal ⟨2, ![M, N]⟩ .f32 :=
  fun j => ∑ k : Fin K, (x (ix2 (j 0) k) : EReal) * w (ix2 k (j 1))

/-- The host's `dot_general` with plain dimension numbers is the matrix product. -/
theorem hostDot_eq (x : FVec Ideal ⟨2, ![M, K]⟩ .f32) (w : FVec Ideal ⟨2, ![K, N]⟩ .f32) :
    Host.dotGeneral (DotDims.plain M K N) none x w = prod M K N x w :=
  funext fun j => PlainDot.dotGeneral_apply M K N none .single x w j

/-- A `tpu.matmul` of the operands cast to bf16, into the zero accumulator, is the matrix product of the operands. -/
theorem matmulBf16_eq (x : FVec Ideal ⟨2, ![M, K]⟩ .f32) (w : FVec Ideal ⟨2, ![K, N]⟩ .f32)
    (h : FTy.bf16.bits < FTy.f32.bits) :
    matmul (DotDims.plain M K N) none (truncf .bf16 x h) (truncf .bf16 w h) (constant ⟨2, ![M, N]⟩ .f32 0x00000000#32)
      = prod M K N x w :=
  funext fun j => PlainDot.matmul_zero_apply M K N none (truncf .bf16 x h) (truncf .bf16 w h) j

/-- ROW LOCALITY. If row `j 0` of a block `xb` is row `i 0` of `X`, and column `j 1` of `wb` is column `i 1` of `W`,
    the product of the blocks at `j` is the product of the matrices at `i`. -/
theorem prod_rows {Mb Nb : Nat} (X : FVec Ideal ⟨2, ![M, K]⟩ .f32) (W : FVec Ideal ⟨2, ![K, N]⟩ .f32)
    (xb : FVec Ideal ⟨2, ![Mb, K]⟩ .f32) (wb : FVec Ideal ⟨2, ![K, Nb]⟩ .f32)
    (j : (⟨2, ![Mb, Nb]⟩ : Shape).Idx) (i : (⟨2, ![M, N]⟩ : Shape).Idx)
    (hx : ∀ k : Fin K, xb (ix2 (j 0) k) = X (ix2 (i 0) k)) (hw : ∀ k : Fin K, wb (ix2 k (j 1)) = W (ix2 k (i 1))) :
    prod Mb K Nb xb wb j = prod M K N X W i :=
  Finset.sum_congr rfl fun k _ => by rw [hx k, hw k]

/-- A row vector [1, N] added to every row of a matrix [M, N]. -/
def addRow (a : FVec Ideal ⟨2, ![M, N]⟩ .f32) (b : FVec Ideal ⟨2, ![1, N]⟩ .f32) : FVec Ideal ⟨2, ![M, N]⟩ .f32 :=
  fun i => (a i : EReal) + b (ix2 (0 : Fin 1) (i 1))

/-- The kernel's spelling of adding a row vector: the row broadcast along the rows, then an entrywise sum. -/
theorem addf_broadcastTo_eq (a : FVec Ideal ⟨2, ![M, N]⟩ .f32) (b : FVec Ideal ⟨2, ![1, N]⟩ .f32) (hN : N ≠ 1)
    (h : (⟨2, ![1, N]⟩ : Shape).Broadcasts ⟨2, ![M, N]⟩) :
    addf a (broadcastTo ⟨2, ![M, N]⟩ b h) = addRow M N a b := by
  funext i
  show (a i : EReal) + broadcastTo ⟨2, ![M, N]⟩ b h i = (a i : EReal) + b (ix2 (0 : Fin 1) (i 1))
  congr 1
  refine broadcastTo_apply b h i (ix2 (0 : Fin 1) (i 1)) fun a => ?_
  match a with
  | ⟨0, _⟩ => show (0 : Nat) = if (1 : Nat) = 1 then 0 else _; rw [if_pos rfl]
  | ⟨1, _⟩ => show (i 1).val = if N = 1 then 0 else (i 1).val; rw [if_neg hN]

/-- Row locality of `addRow`: an entry of a block of rows plus its bias entry is the whole matrix's entry plus the
    same bias entry, when the two summands agree. -/
theorem addRow_rows {Mb : Nat} (A : FVec Ideal ⟨2, ![M, N]⟩ .f32) (B : FVec Ideal ⟨2, ![1, N]⟩ .f32)
    (ab : FVec Ideal ⟨2, ![Mb, N]⟩ .f32) (bb : FVec Ideal ⟨2, ![1, N]⟩ .f32)
    (j : (⟨2, ![Mb, N]⟩ : Shape).Idx) (i : (⟨2, ![M, N]⟩ : Shape).Idx)
    (ha : ab j = A i) (hb : bb (ix2 (0 : Fin 1) (j 1)) = B (ix2 (0 : Fin 1) (i 1))) :
    addRow Mb N ab bb j = addRow M N A B i := by
  show (ab j : EReal) + bb (ix2 (0 : Fin 1) (j 1)) = (A i : EReal) + B (ix2 (0 : Fin 1) (i 1))
  rw [ha, hb]

/-- The hyperbolic tangent entry by entry: the kernel's operation and the host's are one function. -/
theorem tanh_eq_hostTanh {s : Shape} (x : FVec Ideal s .f32) : tanh x = Host.tanh x := rfl

end RowsProduct

end
-- ==== Proof.LibBiasRow.lean ====
/-
  A bias vector added to every row of a matrix, in the two spellings a program uses.

  A vector `bc` of N entries added to every row of an [M, N] matrix `a`:
  * reshaped to a row [1, N] and added with `RowsProduct.addRow` (a kernel that takes the bias as a [1, N] operand);
  * broadcast [N] → [1, N] → [M, N] and added entrywise (the host's `a + bc`).
  Both are `a (r, c) + bc c` at every entry, on any values.
-/
import proofs.«145847_j22033182228530_1_alg».proof.Proof.LibRowsProduct
import Idealize.ShloMosaic.Lib.Pipeline.Value

noncomputable section

namespace RowsProduct

open Idealize.ShloMosaic Idealize.ShloMosaic.ValueIdx

/-- The reshaped row added by `addRow` is the host's two broadcasts and entrywise sum. -/
theorem addRow_reshape_eq (M N : Nat) (a : FVec Ideal ⟨2, ![M, N]⟩ .f32) (bc : FVec Ideal ⟨1, ![N]⟩ .f32) (hN : N ≠ 1)
    (hs : (⟨1, ![N]⟩ : Shape).ShapeCasts ⟨2, ![1, N]⟩)
    (h1 : (⟨1, ![N]⟩ : Shape).BroadcastsInDim ⟨2, ![1, N]⟩ ![1])
    (h2 : (⟨2, ![1, N]⟩ : Shape).BroadcastsInDim ⟨2, ![M, N]⟩ ![0, 1]) :
    addRow M N a (shapeCast ⟨2, ![1, N]⟩ bc hs)
      = addf a (broadcastInDim ⟨2, ![M, N]⟩ ![0, 1] h2 (broadcastInDim ⟨2, ![1, N]⟩ ![1] h1 bc)) := by
  funext i
  show (a i : EReal) + shapeCast ⟨2, ![1, N]⟩ bc hs (ix2 (0 : Fin 1) (i 1))
    = (a i : EReal) + broadcastInDim ⟨2, ![M, N]⟩ ![0, 1] h2 (broadcastInDim ⟨2, ![1, N]⟩ ![1] h1 bc) i
  congr 1
  refine (shapeCast_addUnit_apply ![N] bc hs (ix2 (0 : Fin 1) (i 1))).trans ?_
  refine Eq.symm ((broadcastInDim_apply ![0, 1] h2 _ i (ix2 (0 : Fin 1) (i 1)) ?_).trans
    ((broadcastInDim_apply ![1] h1 bc (ix2 (0 : Fin 1) (i 1)) (ix1 (i 1)) ?_).trans ?_))
  · intro a
    match a with
    | ⟨0, _⟩ => show (0 : Nat) = if (1 : Nat) = 1 then 0 else _; rw [if_pos rfl]
    | ⟨1, _⟩ => show (i 1).val = if N = 1 then 0 else (i 1).val; rw [if_neg hN]
  · intro a
    match a with
    | ⟨0, _⟩ => show (i 1).val = if N = 1 then 0 else (i 1).val; rw [if_neg hN]
  · congr 1
    funext a
    match a with
    | ⟨0, _⟩ => rfl

end RowsProduct

end
-- ==== Proof.SageSpec.lean ====
/-
  The arithmetic of one two-layer message-passing network, stated once over the extended reals and over no program.

  A node's new features are a dense layer of two inputs: the mean `agg` of its neighbours' features and its own
  features `x`, one row per node:

      layer agg x wl wr b  at (r, q)  =  (sum over k of agg (r, k) * wl (k, q)  +  sum over k of x (r, k) * wr (k, q))  +  b (0, q),

  with the bias kept as a row [1, 64]. `relu` is the entrywise maximum with the float zero (kept as the word both
  programs print: it is never evaluated), and `lin` is the final map to two columns, x * w + b.

  Two facts make a grid of row blocks compute the whole layer. First, each spelling of the layer that a program uses
  (a matrix unit fed with operands rounded to a shorter float format, into a zero accumulator, or the host's
  dot_general; a row broadcast along the rows, or a vector broadcast twice) is this one function: on the extended
  reals a change of float format is the identity and a sum of products is a plain finite sum. Second, row r of the
  result reads row r of `agg` and of `x` only (ROW LOCALITY), so the layer of a block of rows is the block of the layer.

  Nothing here needs an entry to be finite: the two sides are the same sums and the same maximum, only spelt differently.
-/
import proofs.«145847_j22033182228530_1_alg».proof.Proof.LibBiasRow
import Idealize.ShloMosaic.PureOps.Ideal
import Idealize.ShloMosaic.Lib.Pipeline.Value

noncomputable section

namespace SageNet

open Idealize.ShloMosaic Idealize.ShloMosaic.ValueIdx RowsProduct

/-- A matrix of extended reals with r rows and c columns. -/
abbrev Mat (r c : Nat) := FVec Ideal ⟨2, ![r, c]⟩ .f32

/-- The maximum with the float zero, entry by entry. -/
def relu {M N : Nat} (h : Mat M N) : Mat M N :=
  maximumf h (fun _ => FloatOps.ofBits .f32 0x00000000#32)

/-- One dense layer of two inputs: (agg * wl + x * wr) + b, the bias a row added to every row. -/
def layer (M : Nat) (agg x : Mat M 64) (wl wr : Mat 64 64) (b : Mat 1 64) : Mat M 64 :=
  addRow M 64 (addf (prod M 64 64 agg wl) (prod M 64 64 x wr)) b

/-- The final linear map to two columns: x * w + b. -/
def lin (M : Nat) (x : Mat M 64) (w : Mat 64 2) (b : Mat 1 2) : Mat M 2 :=
  addRow M 2 (prod M 64 2 x w) b

/-! ## The spellings a kernel body uses -/

/-- The maximum with a splat of the zero scalar is `relu`. -/
theorem relu_splat {M N : Nat} (h : Mat M N) :
    maximumf h (broadcast ⟨2, ![M, N]⟩ (Scalar.ofBits (F := Ideal) .f32 0x00000000#32)) = relu h := rfl

/-- Two matrix-unit products of operands rounded to bf16, into zero accumulators, summed, plus the bias row
    broadcast along the rows: the layer of the operands themselves. -/
theorem layer_body (Mb : Nat) (d : DotDims ⟨2, ![Mb, 64]⟩ ⟨2, ![64, 64]⟩ ⟨2, ![Mb, 64]⟩) (hd : d = DotDims.plain Mb 64 64)
    (x0 x1 : Mat Mb 64) (x2 x3 : Mat 64 64) (x4 : Mat 1 64) (hlt : FTy.bf16.bits < FTy.f32.bits)
    (hb : (⟨2, ![1, 64]⟩ : Shape).Broadcasts ⟨2, ![Mb, 64]⟩) :
    addf (addf (matmul d none (truncf .bf16 x0 hlt) (truncf .bf16 x2 hlt) (constant ⟨2, ![Mb, 64]⟩ .f32 0x00000000#32))
        (matmul d none (truncf .bf16 x1 hlt) (truncf .bf16 x3 hlt) (constant ⟨2, ![Mb, 64]⟩ .f32 0x00000000#32)))
      (broadcastTo ⟨2, ![Mb, 64]⟩ x4 hb) = layer Mb x0 x1 x2 x3 x4 := by
  subst hd
  rw [matmulBf16_eq, matmulBf16_eq, addf_broadcastTo_eq Mb 64 _ x4 (by decide) hb]
  rfl

/-- One matrix-unit product of operands rounded to bf16 plus the bias row: the final linear map. -/
theorem lin_body (Mb : Nat) (d : DotDims ⟨2, ![Mb, 64]⟩ ⟨2, ![64, 2]⟩ ⟨2, ![Mb, 2]⟩) (hd : d = DotDims.plain Mb 64 2)
    (x0 : Mat Mb 64) (x1 : Mat 64 2) (x2 : Mat 1 2) (hlt : FTy.bf16.bits < FTy.f32.bits)
    (hb : (⟨2, ![1, 2]⟩ : Shape).Broadcasts ⟨2, ![Mb, 2]⟩) :
    addf (matmul d none (truncf .bf16 x0 hlt) (truncf .bf16 x1 hlt) (constant ⟨2, ![Mb, 2]⟩ .f32 0x00000000#32))
      (broadcastTo ⟨2, ![Mb, 2]⟩ x2 hb) = lin Mb x0 x1 x2 := by
  subst hd
  rw [matmulBf16_eq, addf_broadcastTo_eq Mb 2 _ x2 (by decide) hb]
  rfl

/-! ## The spellings the host uses -/

/-- The maximum with a broadcast of the zero constant is `relu`. -/
theorem relu_host {M N : Nat} (h : Mat M N) (hz : (⟨0, ![]⟩ : Shape).BroadcastsInDim ⟨2, ![M, N]⟩ ![]) :
    maximumf h (broadcastInDim ⟨2, ![M, N]⟩ ![] hz (constant (F := Ideal) ⟨0, ![]⟩ .f32 0x00000000#32)) = relu h := rfl

/-- Two dot_generals summed, plus the bias vector broadcast to a row and then along the rows: the layer, with the
    bias reshaped to a row. -/
theorem layer_host (M : Nat) (d : DotDims ⟨2, ![M, 64]⟩ ⟨2, ![64, 64]⟩ ⟨2, ![M, 64]⟩) (hd : d = DotDims.plain M 64 64)
    (agg x : Mat M 64) (wl wr : Mat 64 64) (bc : FVec Ideal ⟨1, ![64]⟩ .f32)
    (hs : (⟨1, ![64]⟩ : Shape).ShapeCasts ⟨2, ![1, 64]⟩)
    (h1 : (⟨1, ![64]⟩ : Shape).BroadcastsInDim ⟨2, ![1, 64]⟩ ![1])
    (h2 : (⟨2, ![1, 64]⟩ : Shape).BroadcastsInDim ⟨2, ![M, 64]⟩ ![0, 1]) :
    addf (addf (Host.dotGeneral d none agg wl) (Host.dotGeneral d none x wr))
      (broadcastInDim ⟨2, ![M, 64]⟩ ![0, 1] h2 (broadcastInDim ⟨2, ![1, 64]⟩ ![1] h1 bc))
      = layer M agg x wl wr (shapeCast ⟨2, ![1, 64]⟩ bc hs) := by
  subst hd
  rw [hostDot_eq, hostDot_eq]
  exact (addRow_reshape_eq M 64 _ bc (by decide) hs h1 h2).symm

/-- One dot_general plus the bias vector broadcast twice: the final linear map, with the bias reshaped to a row. -/
theorem lin_host (M : Nat) (d : DotDims ⟨2, ![M, 64]⟩ ⟨2, ![64, 2]⟩ ⟨2, ![M, 2]⟩) (hd : d = DotDims.plain M 64 2)
    (x : Mat M 64) (w : Mat 64 2) (bc : FVec Ideal ⟨1, ![2]⟩ .f32)
    (hs : (⟨1, ![2]⟩ : Shape).ShapeCasts ⟨2, ![1, 2]⟩)
    (h1 : (⟨1, ![2]⟩ : Shape).BroadcastsInDim ⟨2, ![1, 2]⟩ ![1])
    (h2 : (⟨2, ![1, 2]⟩ : Shape).BroadcastsInDim ⟨2, ![M, 2]⟩ ![0, 1]) :
    addf (Host.dotGeneral d none x w)
      (broadcastInDim ⟨2, ![M, 2]⟩ ![0, 1] h2 (broadcastInDim ⟨2, ![1, 2]⟩ ![1] h1 bc))
      = lin M x w (shapeCast ⟨2, ![1, 2]⟩ bc hs) := by
  subst hd
  rw [hostDot_eq]
  exact (addRow_reshape_eq M 2 _ bc (by decide) hs h1 h2).symm

/-! ## Row locality -/

/-- Row `j 0` of the layer of a block of rows is row `i 0` of the layer of the whole matrices, when those rows of
    the two row-indexed operands agree and the two indices name the same column. -/
theorem layer_rows (M Mb : Nat) (A X : Mat M 64) (ab xb : Mat Mb 64) (wl wr : Mat 64 64) (b : Mat 1 64)
    (j : (⟨2, ![Mb, 64]⟩ : Shape).Idx) (i : (⟨2, ![M, 64]⟩ : Shape).Idx) (hc : j 1 = i 1)
    (ha : ∀ k : Fin 64, ab (ix2 (j 0) k) = A (ix2 (i 0) k)) (hx : ∀ k : Fin 64, xb (ix2 (j 0) k) = X (ix2 (i 0) k)) :
    layer Mb ab xb wl wr b j = layer M A X wl wr b i := by
  unfold layer
  refine addRow_rows M 64 _ b _ b j i ?_ (by rw [hc])
  show FloatOps.addf (prod Mb 64 64 ab wl j) (prod Mb 64 64 xb wr j)
    = FloatOps.addf (prod M 64 64 A wl i) (prod M 64 64 X wr i)
  rw [prod_rows M 64 64 A wl ab wl j i ha (fun k => by rw [hc]),
    prod_rows M 64 64 X wr xb wr j i hx (fun k => by rw [hc])]

/-- Row locality of the final linear map. -/
theorem lin_rows (M Mb : Nat) (X : Mat M 64) (xb : Mat Mb 64) (w : Mat 64 2) (b : Mat 1 2)
    (j : (⟨2, ![Mb, 2]⟩ : Shape).Idx) (i : (⟨2, ![M, 2]⟩ : Shape).Idx) (hc : j 1 = i 1)
    (hx : ∀ k : Fin 64, xb (ix2 (j 0) k) = X (ix2 (i 0) k)) :
    lin Mb xb w b j = lin M X w b i := by
  unfold lin
  refine addRow_rows M 2 _ b _ b j i ?_ (by rw [hc])
  exact prod_rows M 64 2 X w xb w j i hx (fun k => by rw [hc])

/-- `relu` is entrywise: equal entries have equal maxima with zero. -/
theorem relu_entry {M N Mb Nb : Nat} (H : Mat M N) (hb : Mat Mb Nb)
    (j : (⟨2, ![Mb, Nb]⟩ : Shape).Idx) (i : (⟨2, ![M, N]⟩ : Shape).Idx) (h : hb j = H i) :
    relu hb j = relu H i := by
  show FloatOps.maximumf (hb j) _ = FloatOps.maximumf (H i) _
  rw [h]

/-! ## The whole network -/

/-- A vector of a million 32-bit edge endpoints. -/
abbrev Edges := IVec ⟨1, ![1000000]⟩ 32

/-- The network's output as ONE function of its inputs, over two segment means kept abstract: `smM x src dst` sends a
    table `x` of customer rows to one mean row per merchant (the rows `x[src e]` averaged over the edges e with
    `dst e` = that merchant), `smC` a table of merchant rows to one mean row per customer. Layer one gives the
    merchants `hM` and the customers `hC` (a relu of a dense layer each); layer two gives the customers a dense layer
    of the mean of their neighbouring merchants' `hM` and of their own `hC`; the output is its linear map to two
    columns. (The merchants' layer two feeds nothing.) -/
def net (smM : Mat 200000 64 → Edges → Edges → Mat 50000 64) (smC : Mat 50000 64 → Edges → Edges → Mat 200000 64)
    (xC : Mat 200000 64) (xM : Mat 50000 64) (cmSrc cmDst mcSrc mcDst : Edges)
    (wl1cm wr1cm : Mat 64 64) (b1cm : FVec Ideal ⟨1, ![64]⟩ .f32)
    (wl1mc wr1mc : Mat 64 64) (b1mc : FVec Ideal ⟨1, ![64]⟩ .f32)
    (wl2mc wr2mc : Mat 64 64) (b2mc : FVec Ideal ⟨1, ![64]⟩ .f32)
    (wLin : Mat 64 2) (bLin : FVec Ideal ⟨1, ![2]⟩ .f32) : Mat 200000 2 :=
  let hM : Mat 50000 64 := relu (layer 50000 (smM xC cmSrc cmDst) xM wl1cm wr1cm (shapeCast ⟨2, ![1, 64]⟩ b1cm))
  let hC : Mat 200000 64 := relu (layer 200000 (smC xM mcSrc mcDst) xC wl1mc wr1mc (shapeCast ⟨2, ![1, 64]⟩ b1mc))
  lin 200000 (layer 200000 (smC hM mcSrc mcDst) hC wl2mc wr2mc (shapeCast ⟨2, ![1, 64]⟩ b2mc)) wLin
    (shapeCast ⟨2, ![1, 2]⟩ bLin)

end SageNet

end
-- ==== Proof.Region0.lean ====
/-
  The first dense layer's region: the merchants' layer-one features.

  The grid has ten points. Point t fetches rows 5000 t .. 5000 t + 4999 of the aggregated neighbour features and of the
  merchants' own features, and the whole of the two weight matrices and of the bias row; its body writes the relu of the
  dense layer of that block of rows, and the block is written back to the same rows of the result. By row locality the
  block of the layer is the layer of the block, and the ten blocks tile the 50000 rows, so after the last point the
  result array holds the relu of the layer of the whole matrices as the region found them.
-/
import proofs.«145847_j22033182228530_1_alg».proof.Proof.Gen.KernelIdeal.Frame
import proofs.«145847_j22033182228530_1_alg».proof.Proof.SageSpec

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen SageNet

variable (V : (c : Dev nD) → (b : Ref sig .tc) → Buf (Elt Ideal) ((c : Thread nD τ).loc b))

theorem hz0 : (![0, 0] : Fin 2 → Nat) = fun _ => 0 := funext fun a => by fin_cases a <;> rfl

/-- The body's stored value is the relu of the dense layer of its five loaded blocks. -/
theorem pay0 (x0 x1 : Vec Ideal S5000x64 .f32) (x2 x3 : Vec Ideal S64x64 .f32) (x4 : Vec Ideal S1x64 .f32) :
    k0_pay1 (F := Ideal) x0 x1 x2 x3 x4 = relu (layer 5000 x0 x1 x2 x3 x4) := by
  unfold k0_pay1
  dsimp only
  rw [shapeCast_self, shapeCast_self]
  exact (congrArg (fun z => maximumf z (broadcast S5000x64 (Scalar.ofBits (F := Ideal) .f32 0x00000000#32)))
    (layer_body 5000 dot_S5000x64_S64x64_S5000x64_1_0_0_1_n_n rfl x0 x1 x2 x3 x4 bitsLt_bf16_f32
      broadcasts_S1x64_S5000x64)).trans (relu_splat _)

/-- The printed index maps over the grid: the three row-blocked windows sit at block row t, the others at the origin. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row y of point t's block of the aggregated features is row 5000 t + y of the array. -/
theorem blk0_0 (c : Dev nD) (t : Fin cfg0.N) (y : S5000x64.Idx) (i : S50000x64.Idx)
    (h0 : (i 0).val = 5000 * t.val + (y 0).val) (h1 : (i 1).val = (y 1).val) :
    (iblk0 V c 0 t : Vec Ideal S5000x64 .f32) y = (V c main_v17 : S50000x64.Idx → EReal) i := by
  obtain ⟨e0, e1, -⟩ := idx0 t
  unfold iblk0
  rw [View.read_apply]
  show (V c main_v17 : S50000x64.Idx → EReal) _ = V c main_v17 _
  congr 1
  funext a
  apply Fin.ext
  match a with
  | ⟨0, _⟩ => show win0_0.index t 0 * 5000 + 1 * (y 0).val = (i 0).val; rw [e0, h0]; omega
  | ⟨1, _⟩ => show win0_0.index t 1 * 64 + 1 * (y 1).val = (i 1).val; rw [e1, h1]; omega

/-- The same for the block of the nodes' own features. -/
theorem blk0_1 (c : Dev nD) (t : Fin cfg0.N) (y : S5000x64.Idx) (i : S50000x64.Idx)
    (h0 : (i 0).val = 5000 * t.val + (y 0).val) (h1 : (i 1).val = (y 1).val) :
    (iblk0 V c 1 t : Vec Ideal S5000x64 .f32) y = (V c main_arg1 : S50000x64.Idx → EReal) i := by
  obtain ⟨-, -, e0, e1, -⟩ := idx0 t
  unfold iblk0
  rw [View.read_apply]
  show (V c main_arg1 : S50000x64.Idx → EReal) _ = V c main_arg1 _
  congr 1
  funext a
  apply Fin.ext
  match a with
  | ⟨0, _⟩ => show win0_1.index t 0 * 5000 + 1 * (y 0).val = (i 0).val; rw [e0, h0]; omega
  | ⟨1, _⟩ => show win0_1.index t 1 * 64 + 1 * (y 1).val = (i 1).val; rw [e1, h1]; omega

/-- The weight windows and the bias window are fetched whole: their block is the array. -/
theorem blk0_2 (c : Dev nD) (t : Fin cfg0.N) : (iblk0 V c 2 t : Vec Ideal S64x64 .f32) = V c main_arg6 := by
  obtain ⟨-, -, -, -, e0, e1, -⟩ := idx0 t
  funext y
  unfold iblk0
  rw [View.read_apply]
  show (V c main_arg6 : S64x64.Idx → EReal) _ = V c main_arg6 _
  congr 1
  funext a
  apply Fin.ext
  match a with
  | ⟨0, _⟩ => show win0_2.index t 0 * 64 + 1 * (y 0).val = (y 0).val; rw [e0]; omega
  | ⟨1, _⟩ => show win0_2.index t 1 * 64 + 1 * (y 1).val = (y 1).val; rw [e1]; omega

theorem blk0_3 (c : Dev nD) (t : Fin cfg0.N) : (iblk0 V c 3 t : Vec Ideal S64x64 .f32) = V c main_arg7 := by
  obtain ⟨-, -, -, -, -, -, e0, e1, -⟩ := idx0 t
  funext y
  unfold iblk0
  rw [View.read_apply]
  show (V c main_arg7 : S64x64.Idx → EReal) _ = V c main_arg7 _
  congr 1
  funext a
  apply Fin.ext
  match a with
  | ⟨0, _⟩ => show win0_3.index t 0 * 64 + 1 * (y 0).val = (y 0).val; rw [e0]; omega
  | ⟨1, _⟩ => show win0_3.index t 1 * 64 + 1 * (y 1).val = (y 1).val; rw [e1]; omega

theorem blk0_4 (c : Dev nD) (t : Fin cfg0.N) : (iblk0 V c 4 t : Vec Ideal S1x64 .f32) = V c main_v18 := by
  obtain ⟨-, -, -, -, -, -, -, -, e0, e1, -⟩ := idx0 t
  funext y
  unfold iblk0
  rw [View.read_apply]
  show (V c main_v18 : S1x64.Idx → EReal) _ = V c main_v18 _
  congr 1
  funext a
  apply Fin.ext
  match a with
  | ⟨0, _⟩ => show win0_4.index t 0 * 1 + 1 * (y 0).val = (y 0).val; rw [e0]; omega
  | ⟨1, _⟩ => show win0_4.index t 1 * 64 + 1 * (y 1).val = (y 1).val; rw [e1]; omega

/-- The merchants' layer-one features, as one function of the arrays the region finds. -/
abbrev res0 (c : Dev nD) : Mat 50000 64 :=
  relu (layer 50000 (V c main_v17) (V c main_arg1) (V c main_arg6) (V c main_arg7) (V c main_v18))

/-- What point t writes back is block t of that function. -/
theorem flushed0 (c : Dev nD) (t : Fin cfg0.N) :
    (dat0 V c).flushed 5 t = ((cfg0.win 5).blk t).view.read (Elt Ideal) (res0 V c) := by
  show (cfg0.win 5).cut (grid0.coords t) ((dat0 V c).after 5 t) = _
  rw [after0_5]
  unfold out0_5
  rw [View.canon_unit_zero hz0]
  simp only [View.ld_unit_zero (S := S5000x64) hz0, View.ld_unit_zero (S := S64x64) hz0, View.ld_unit_zero (S := S1x64) hz0]
  obtain ⟨-, -, -, -, -, -, -, -, -, -, e0, e1⟩ := idx0 t
  funext j
  show k0_pay1 (iblk0 V c 0 t) (iblk0 V c 1 t) (iblk0 V c 2 t) (iblk0 V c 3 t) (iblk0 V c 4 t) j
    = res0 V c (((cfg0.win 5).blk t).view.emb j)
  refine (congrFun (pay0 _ _ _ _ _) j).trans ?_
  have hr : ((((cfg0.win 5).blk t).view.emb j) 0).val = 5000 * t.val + (j 0).val := by
    show win0_5.index t 0 * 5000 + 1 * (j 0).val = _; rw [e0]; omega
  have hc : ((((cfg0.win 5).blk t).view.emb j) 1).val = (j 1).val := by
    show win0_5.index t 1 * 64 + 1 * (j 1).val = _; rw [e1]; omega
  refine relu_entry _ _ j _ ?_
  rw [blk0_2 V c t, blk0_3 V c t, blk0_4 V c t]
  exact layer_rows 50000 5000 _ _ _ _ _ _ _ j _ (Fin.ext hc.symm)
    (fun k => blk0_0 V c t _ _ hr rfl) (fun k => blk0_1 V c t _ _ hr rfl)

/-- An index of the result array is in point t's block iff its row is among the block's 5000 rows. -/
theorem mem_blk0 (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v19).slice (win0_5.rect t)).set ↔ _
  rw [View.set_slice_whole, Rect.mem_set_unit]
  exact Iff.rfl

/-- Every row of the result lies in the block of the point that owns it. -/
theorem cover0 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have ht : (i 0).val / 5000 < cfg0.N := by show _ < 10; omega
  obtain ⟨t, htv⟩ : ∃ t : Fin cfg0.N, t.val = (i 0).val / 5000 := ⟨⟨_, ht⟩, rfl⟩
  obtain ⟨-, -, -, -, -, -, -, -, -, -, e0, e1⟩ := idx0 t
  refine ⟨t, flush0_5 t, (mem_blk0 t i).mpr fun a => ?_⟩
  match a with
  | ⟨0, _⟩ =>
    show win0_5.index t 0 * 5000 ≤ (i 0).val ∧ (i 0).val < win0_5.index t 0 * 5000 + 5000
    rw [e0, htv]; omega
  | ⟨1, _⟩ =>
    show win0_5.index t 1 * 64 ≤ (i 1).val ∧ (i 1).val < win0_5.index t 1 * 64 + 64
    rw [e1]; omega

/-- After the last point the result array holds that function of the arrays the region found. -/
theorem final0 (c : Dev nD) : (dat0 V c).arrAt 5 cfg0.N = res0 V c :=
  (dat0 V c).arrAt_eq_of_cover 5 (res0 V c) (fun t _ => flushed0 V c t) (cover0)

end Cert.KernelIdeal.Hand

end
-- ==== Proof.Chain0.lean ====
/-
  The kernel program up to the end of its first region.

  The first stretch of host operations computes, from the launch contents, the mean of the customers' rows over each
  merchant's incoming edges and the first bias as a row; it writes no argument. The first region then leaves in its
  result array the merchants' layer-one features (the relu of the dense layer of that mean and of the merchants' own
  rows) and every other buffer as it was. So at the region's exit the result buffer is that function of the launch
  contents, and every argument still holds its launch contents.
-/
import proofs.«145847_j22033182228530_1_alg».proof.Proof.Gen.KernelIdeal.Frame
import proofs.«145847_j22033182228530_1_alg».proof.Proof.Region0

set_option maxRecDepth 16384

noncomputable section

namespace Cert.KernelIdeal.Hand

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen SageNet

variable (m : (ℓ : Loc nD τ sig) → Buf (Elt Ideal) ℓ) (ρ : Dev nD → PrngReg)

/-- The mean over incoming edges, customers to merchants, exactly as both programs spell it on the host: the rows
    `x[src e]` gathered (a negative endpoint wrapped once by the table's length), added into the row `dst e` of a zero
    table, and divided by the number of incoming edges or by one where there is none. Kept as one function: the
    proof never opens the gather or the scatter. -/
def smM (x : FVec Ideal S200000x64 .f32) (src dst : IVec S1000000 32) : FVec Ideal S50000x64 .f32 :=
  Host.divf (F := Ideal) (Host.scatterAdd scatter_S50000x64_S1000000x1_S1000000x64_1_0_0_1 (broadcastInDim S50000x64 ![] bcast_S_S50000x64 (constant S_ .f32 0x00000000#32)) (broadcastInDim S1000000x1 ![0] bcast_S1000000_S1000000x1_0 dst) (Host.gather gather_S200000x64_S1000000x1_S1000000x64_1_0_n_n_0_1_164 x (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 200000#32))) src)))) (broadcastInDim S50000x64 ![0, 1] bcast_S50000x1_S50000x64_0_1 (maximumf (Host.scatterAdd scatter_S50000x1_S1000000x1_S1000000x1_1_0_0_1 (broadcastInDim S50000x1 ![] bcast_S_S50000x1 (constant S_ .f32 0x00000000#32)) (broadcastInDim S1000000x1 ![0] bcast_S1000000_S1000000x1_0 dst) (broadcastInDim S1000000x1 ![] bcast_S_S1000000x1 (constant S_ .f32 0x3F800000#32))) (broadcastInDim S50000x1 ![] bcast_S_S50000x1 (constant S_ .f32 0x3F800000#32))))

/-- The same mean, merchants to customers. -/
def smC (x : FVec Ideal S50000x64 .f32) (src dst : IVec S1000000 32) : FVec Ideal S200000x64 .f32 :=
  Host.divf (F := Ideal) (Host.scatterAdd scatter_S200000x64_S1000000x1_S1000000x64_1_0_0_1 (broadcastInDim S200000x64 ![] bcast_S_S200000x64 (constant S_ .f32 0x00000000#32)) (broadcastInDim S1000000x1 ![0] bcast_S1000000_S1000000x1_0 dst) (Host.gather gather_S50000x64_S1000000x1_S1000000x64_1_0_n_n_0_1_164 x (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 50000#32))) src)))) (broadcastInDim S200000x64 ![0, 1] bcast_S200000x1_S200000x64_0_1 (maximumf (Host.scatterAdd scatter_S200000x1_S1000000x1_S1000000x1_1_0_0_1 (broadcastInDim S200000x1 ![] bcast_S_S200000x1 (constant S_ .f32 0x00000000#32)) (broadcastInDim S1000000x1 ![0] bcast_S1000000_S1000000x1_0 dst) (broadcastInDim S1000000x1 ![] bcast_S_S1000000x1 (constant S_ .f32 0x3F800000#32))) (broadcastInDim S200000x1 ![] bcast_S_S200000x1 (constant S_ .f32 0x3F800000#32))))

/-- The argument buffers the later stages read hold their launch contents in the valuation W. -/
structure ArgsAt (c : Dev nD) (W : Valuation τ sig (Elt Ideal)) : Prop where
  a0 : W (Proc.devRef .tc main_arg0) = m ((c : Thread nD τ).loc main_arg0)
  a1 : W (Proc.devRef .tc main_arg1) = m ((c : Thread nD τ).loc main_arg1)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a9 : W (Proc.devRef .tc main_arg9) = m ((c : Thread nD τ).loc main_arg9)
  a10 : W (Proc.devRef .tc main_arg10) = m ((c : Thread nD τ).loc main_arg10)
  a11 : W (Proc.devRef .tc main_arg11) = m ((c : Thread nD τ).loc main_arg11)
  a15 : W (Proc.devRef .tc main_arg15) = m ((c : Thread nD τ).loc main_arg15)
  a16 : W (Proc.devRef .tc main_arg16) = m ((c : Thread nD τ).loc main_arg16)
  a17 : W (Proc.devRef .tc main_arg17) = m ((c : Thread nD τ).loc main_arg17)
  a18 : W (Proc.devRef .tc main_arg18) = m ((c : Thread nD τ).loc main_arg18)
  a19 : W (Proc.devRef .tc main_arg19) = m ((c : Thread nD τ).loc main_arg19)

/-- At launch they do, by definition. -/
theorem args0 (c : Dev nD) : ArgsAt m c (W0 m ρ c) := ⟨rfl, rfl, rfl, rfl, rfl, rfl, rfl, rfl, rfl, rfl, rfl, rfl, rfl, rfl⟩

set_option maxHeartbeats 4000000 in
/-- No operation of this stretch writes an argument: after it each argument buffer holds what it held before. -/
theorem host0_args (c : Dev nD) (W : Valuation τ sig (Elt Ideal)) (h : ArgsAt m c W) :
    ArgsAt m c (StableHlo.after (hostOps0 (F := Ideal)) W) := by
  obtain ⟨h0, h1, h4, h5, h6, h7, h9, h10, h11, h15, h16, h17, h18, h19⟩ := h
  refine ⟨?_, ?_, ?_, ?_, ?_, ?_, ?_, ?_, ?_, ?_, ?_, ?_, ?_, ?_⟩ <;> (dsimp only [hostOps0]; after_results_simp; assumption)

set_option maxHeartbeats 4000000 in
/-- The first stretch leaves the mean of the customers' rows over each merchant's incoming edges. -/
theorem host0_v17 (W : Valuation τ sig (Elt Ideal)) :
    StableHlo.after (hostOps0 (F := Ideal)) W (Proc.devRef .tc main_v17)
      = smM (W (Proc.devRef .tc main_arg0)) (W (Proc.devRef .tc main_arg2)) (W (Proc.devRef .tc main_arg3)) := by
  dsimp only [hostOps0]; after_results_simp; rfl

set_option maxHeartbeats 4000000 in
/-- ... and the first bias as a row. -/
theorem host0_v18 (W : Valuation τ sig (Elt Ideal)) :
    StableHlo.after (hostOps0 (F := Ideal)) W (Proc.devRef .tc main_v18)
      = shapeCast S1x64 (W (Proc.devRef .tc main_arg8)) shapeCasts_S64_S1x64 := by
  dsimp only [hostOps0]; after_results_simp; rfl

theorem args1 (c : Dev nD) : ArgsAt m c (W1 m ρ c) := host0_args m c _ (args0 m ρ c)

theorem W1_v17 (c : Dev nD) : W1 m ρ c (Proc.devRef .tc main_v17) = smM (m ((c : Thread nD τ).loc main_arg0)) (m ((c : Thread nD τ).loc main_arg2)) (m ((c : Thread nD τ).loc main_arg3)) :=
  host0_v17 (W0 m ρ c)

theorem W1_v18 (c : Dev nD) : W1 m ρ c (Proc.devRef .tc main_v18) = shapeCast S1x64 (m ((c : Thread nD τ).loc main_arg8)) shapeCasts_S64_S1x64 :=
  host0_v18 (W0 m ρ c)

/-- The merchants' layer-one features as a function of the launch contents. -/
abbrev hM (c : Dev nD) : Mat 50000 64 :=
  relu (layer 50000 (smM (m ((c : Thread nD τ).loc main_arg0)) (m ((c : Thread nD τ).loc main_arg2)) (m ((c : Thread nD τ).loc main_arg3))) (m ((c : Thread nD τ).loc main_arg1)) (m ((c : Thread nD τ).loc main_arg6)) (m ((c : Thread nD τ).loc main_arg7))
    (shapeCast S1x64 (m ((c : Thread nD τ).loc main_arg8)) shapeCasts_S64_S1x64))

/-- At the first region's exit its result buffer holds the merchants' layer-one features. -/
theorem W2_v19 (c : Dev nD) : W2 m ρ c (Proc.devRef .tc main_v19) = hM m c := by
  have A := args1 m ρ c
  refine (W2_arr m ρ c 5).trans ((final0 (V1 m ρ) c).trans ?_)
  show relu (layer 50000 (W1 m ρ c (Proc.devRef .tc main_v17)) (W1 m ρ c (Proc.devRef .tc main_arg1)) (W1 m ρ c (Proc.devRef .tc main_arg6))
    (W1 m ρ c (Proc.devRef .tc main_arg7)) (W1 m ρ c (Proc.devRef .tc main_v18))) = _
  rw [A.a1, A.a6, A.a7, W1_v17 m ρ c, W1_v18 m ρ c]

/-- ... and every argument still holds its launch contents: the region writes only its result array. -/
theorem args2 (c : Dev nD) : ArgsAt m c (W2 m ρ c) := by
  obtain ⟨h0, h1, h4, h5, h6, h7, h9, h10, h11, h15, h16, h17, h18, h19⟩ := args1 m ρ c
  exact ⟨(W2_of_ne m ρ c main_arg0 (by decide)).trans h0,
     ((W2_arr m ρ c 1).trans (((dat0 (V1 m ρ) c).arrAt_in 1 rfl _).trans (A_eq0 (V1 m ρ) c 1))).trans h1,
     (W2_of_ne m ρ c main_arg4 (by decide)).trans h4,
     (W2_of_ne m ρ c main_arg5 (by decide)).trans h5,
     ((W2_arr m ρ c 2).trans (((dat0 (V1 m ρ) c).arrAt_in 2 rfl _).trans (A_eq0 (V1 m ρ) c 2))).trans h6,
     ((W2_arr m ρ c 3).trans (((dat0 (V1 m ρ) c).arrAt_in 3 rfl _).trans (A_eq0 (V1 m ρ) c 3))).trans h7,
     (W2_of_ne m ρ c main_arg9 (by decide)).trans h9,
     (W2_of_ne m ρ c main_arg10 (by decide)).trans h10,
     (W2_of_ne m ρ c main_arg11 (by decide)).trans h11,
     (W2_of_ne m ρ c main_arg15 (by decide)).trans h15,
     (W2_of_ne m ρ c main_arg16 (by decide)).trans h16,
     (W2_of_ne m ρ c main_arg17 (by decide)).trans h17,
     (W2_of_ne m ρ c main_arg18 (by decide)).trans h18,
     (W2_of_ne m ρ c main_arg19 (by decide)).trans h19⟩

end Cert.KernelIdeal.Hand

end
-- ==== Proof.Region1.lean ====
/-
  The second dense layer's region: the customers' layer-one features.

  The grid has forty points. Point t fetches rows 5000 t .. 5000 t + 4999 of the aggregated neighbour features and of the
  customers' own features, and the whole of the two weight matrices and of the bias row; its body writes the relu of the
  dense layer of that block of rows, and the block is written back to the same rows of the result. By row locality the
  block of the layer is the layer of the block, and the forty blocks tile the 200000 rows, so after the last point the
  result array holds the relu of the layer of the whole matrices as the region found them.
-/
import proofs.«145847_j22033182228530_1_alg».proof.Proof.Gen.KernelIdeal.Frame
import proofs.«145847_j22033182228530_1_alg».proof.Proof.SageSpec

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen SageNet

variable (V : (c : Dev nD) → (b : Ref sig .tc) → Buf (Elt Ideal) ((c : Thread nD τ).loc b))

theorem hz1 : (![0, 0] : Fin 2 → Nat) = fun _ => 0 := funext fun a => by fin_cases a <;> rfl

/-- The body's stored value is the relu of the dense layer of its five loaded blocks. -/
theorem pay1 (x0 x1 : Vec Ideal S5000x64 .f32) (x2 x3 : Vec Ideal S64x64 .f32) (x4 : Vec Ideal S1x64 .f32) :
    k1_pay1 (F := Ideal) x0 x1 x2 x3 x4 = relu (layer 5000 x0 x1 x2 x3 x4) := by
  unfold k1_pay1
  dsimp only
  rw [shapeCast_self, shapeCast_self]
  exact (congrArg (fun z => maximumf z (broadcast S5000x64 (Scalar.ofBits (F := Ideal) .f32 0x00000000#32)))
    (layer_body 5000 dot_S5000x64_S64x64_S5000x64_1_0_0_1_n_n rfl x0 x1 x2 x3 x4 bitsLt_bf16_f32
      broadcasts_S1x64_S5000x64)).trans (relu_splat _)

/-- The printed index maps over the grid: the three row-blocked windows sit at block row t, the others at the origin. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row y of point t's block of the aggregated features is row 5000 t + y of the array. -/
theorem blk1_0 (c : Dev nD) (t : Fin cfg1.N) (y : S5000x64.Idx) (i : S200000x64.Idx)
    (h0 : (i 0).val = 5000 * t.val + (y 0).val) (h1 : (i 1).val = (y 1).val) :
    (iblk1 V c 0 t : Vec Ideal S5000x64 .f32) y = (V c main_v37 : S200000x64.Idx → EReal) i := by
  obtain ⟨e0, e1, -⟩ := idx1 t
  unfold iblk1
  rw [View.read_apply]
  show (V c main_v37 : S200000x64.Idx → EReal) _ = V c main_v37 _
  congr 1
  funext a
  apply Fin.ext
  match a with
  | ⟨0, _⟩ => show win1_0.index t 0 * 5000 + 1 * (y 0).val = (i 0).val; rw [e0, h0]; omega
  | ⟨1, _⟩ => show win1_0.index t 1 * 64 + 1 * (y 1).val = (i 1).val; rw [e1, h1]; omega

/-- The same for the block of the nodes' own features. -/
theorem blk1_1 (c : Dev nD) (t : Fin cfg1.N) (y : S5000x64.Idx) (i : S200000x64.Idx)
    (h0 : (i 0).val = 5000 * t.val + (y 0).val) (h1 : (i 1).val = (y 1).val) :
    (iblk1 V c 1 t : Vec Ideal S5000x64 .f32) y = (V c main_arg0 : S200000x64.Idx → EReal) i := by
  obtain ⟨-, -, e0, e1, -⟩ := idx1 t
  unfold iblk1
  rw [View.read_apply]
  show (V c main_arg0 : S200000x64.Idx → EReal) _ = V c main_arg0 _
  congr 1
  funext a
  apply Fin.ext
  match a with
  | ⟨0, _⟩ => show win1_1.index t 0 * 5000 + 1 * (y 0).val = (i 0).val; rw [e0, h0]; omega
  | ⟨1, _⟩ => show win1_1.index t 1 * 64 + 1 * (y 1).val = (i 1).val; rw [e1, h1]; omega

/-- The weight windows and the bias window are fetched whole: their block is the array. -/
theorem blk1_2 (c : Dev nD) (t : Fin cfg1.N) : (iblk1 V c 2 t : Vec Ideal S64x64 .f32) = V c main_arg9 := by
  obtain ⟨-, -, -, -, e0, e1, -⟩ := idx1 t
  funext y
  unfold iblk1
  rw [View.read_apply]
  show (V c main_arg9 : S64x64.Idx → EReal) _ = V c main_arg9 _
  congr 1
  funext a
  apply Fin.ext
  match a with
  | ⟨0, _⟩ => show win1_2.index t 0 * 64 + 1 * (y 0).val = (y 0).val; rw [e0]; omega
  | ⟨1, _⟩ => show win1_2.index t 1 * 64 + 1 * (y 1).val = (y 1).val; rw [e1]; omega

theorem blk1_3 (c : Dev nD) (t : Fin cfg1.N) : (iblk1 V c 3 t : Vec Ideal S64x64 .f32) = V c main_arg10 := by
  obtain ⟨-, -, -, -, -, -, e0, e1, -⟩ := idx1 t
  funext y
  unfold iblk1
  rw [View.read_apply]
  show (V c main_arg10 : S64x64.Idx → EReal) _ = V c main_arg10 _
  congr 1
  funext a
  apply Fin.ext
  match a with
  | ⟨0, _⟩ => show win1_3.index t 0 * 64 + 1 * (y 0).val = (y 0).val; rw [e0]; omega
  | ⟨1, _⟩ => show win1_3.index t 1 * 64 + 1 * (y 1).val = (y 1).val; rw [e1]; omega

theorem blk1_4 (c : Dev nD) (t : Fin cfg1.N) : (iblk1 V c 4 t : Vec Ideal S1x64 .f32) = V c main_v38 := by
  obtain ⟨-, -, -, -, -, -, -, -, e0, e1, -⟩ := idx1 t
  funext y
  unfold iblk1
  rw [View.read_apply]
  show (V c main_v38 : S1x64.Idx → EReal) _ = V c main_v38 _
  congr 1
  funext a
  apply Fin.ext
  match a with
  | ⟨0, _⟩ => show win1_4.index t 0 * 1 + 1 * (y 0).val = (y 0).val; rw [e0]; omega
  | ⟨1, _⟩ => show win1_4.index t 1 * 64 + 1 * (y 1).val = (y 1).val; rw [e1]; omega

/-- The customers' layer-one features, as one function of the arrays the region finds. -/
abbrev res1 (c : Dev nD) : Mat 200000 64 :=
  relu (layer 200000 (V c main_v37) (V c main_arg0) (V c main_arg9) (V c main_arg10) (V c main_v38))

/-- What point t writes back is block t of that function. -/
theorem flushed1 (c : Dev nD) (t : Fin cfg1.N) :
    (dat1 V c).flushed 5 t = ((cfg1.win 5).blk t).view.read (Elt Ideal) (res1 V c) := by
  show (cfg1.win 5).cut (grid1.coords t) ((dat1 V c).after 5 t) = _
  rw [after1_5]
  unfold out1_5
  rw [View.canon_unit_zero hz1]
  simp only [View.ld_unit_zero (S := S5000x64) hz1, View.ld_unit_zero (S := S64x64) hz1, View.ld_unit_zero (S := S1x64) hz1]
  obtain ⟨-, -, -, -, -, -, -, -, -, -, e0, e1⟩ := idx1 t
  funext j
  show k1_pay1 (iblk1 V c 0 t) (iblk1 V c 1 t) (iblk1 V c 2 t) (iblk1 V c 3 t) (iblk1 V c 4 t) j
    = res1 V c (((cfg1.win 5).blk t).view.emb j)
  refine (congrFun (pay1 _ _ _ _ _) j).trans ?_
  have hr : ((((cfg1.win 5).blk t).view.emb j) 0).val = 5000 * t.val + (j 0).val := by
    show win1_5.index t 0 * 5000 + 1 * (j 0).val = _; rw [e0]; omega
  have hc : ((((cfg1.win 5).blk t).view.emb j) 1).val = (j 1).val := by
    show win1_5.index t 1 * 64 + 1 * (j 1).val = _; rw [e1]; omega
  refine relu_entry _ _ j _ ?_
  rw [blk1_2 V c t, blk1_3 V c t, blk1_4 V c t]
  exact layer_rows 200000 5000 _ _ _ _ _ _ _ j _ (Fin.ext hc.symm)
    (fun k => blk1_0 V c t _ _ hr rfl) (fun k => blk1_1 V c t _ _ hr rfl)

/-- An index of the result array is in point t's block iff its row is among the block's 5000 rows. -/
theorem mem_blk1 (t : Fin cfg1.N) (i : S200000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v39).slice (win1_5.rect t)).set ↔ _
  rw [View.set_slice_whole, Rect.mem_set_unit]
  exact Iff.rfl

/-- Every row of the result lies in the block of the point that owns it. -/
theorem cover1 (i : S200000x64.Idx) :
    ∃ t : Fin cfg1.N, (cfg1.win 5).flush t = true ∧ i ∈ ((cfg1.win 5).blk t).view.set := by
  have hi0 : (i 0).val < 200000 := (i 0).isLt
  have hi1 : (i 1).val < 64 := (i 1).isLt
  have ht : (i 0).val / 5000 < cfg1.N := by show _ < 40; omega
  obtain ⟨t, htv⟩ : ∃ t : Fin cfg1.N, t.val = (i 0).val / 5000 := ⟨⟨_, ht⟩, rfl⟩
  obtain ⟨-, -, -, -, -, -, -, -, -, -, e0, e1⟩ := idx1 t
  refine ⟨t, flush1_5 t, (mem_blk1 t i).mpr fun a => ?_⟩
  match a with
  | ⟨0, _⟩ =>
    show win1_5.index t 0 * 5000 ≤ (i 0).val ∧ (i 0).val < win1_5.index t 0 * 5000 + 5000
    rw [e0, htv]; omega
  | ⟨1, _⟩ =>
    show win1_5.index t 1 * 64 ≤ (i 1).val ∧ (i 1).val < win1_5.index t 1 * 64 + 64
    rw [e1]; omega

/-- After the last point the result array holds that function of the arrays the region found. -/
theorem final1 (c : Dev nD) : (dat1 V c).arrAt 5 cfg1.N = res1 V c :=
  (dat1 V c).arrAt_eq_of_cover 5 (res1 V c) (fun t _ => flushed1 V c t) (cover1)

end Cert.KernelIdeal.Hand

end
-- ==== Proof.Chain1.lean ====
/-
  The kernel program from its first region's exit to its second region's exit.

  The second stretch of host operations computes the mean of the merchants' rows over each customer's incoming edges
  and the second bias as a row; it writes neither an argument nor the merchants' layer-one features. The second region
  leaves in its result array the customers' layer-one features and every other buffer as it was.
-/
import proofs.«145847_j22033182228530_1_alg».proof.Proof.Chain0
import proofs.«145847_j22033182228530_1_alg».proof.Proof.Region1

set_option maxRecDepth 16384

noncomputable section

namespace Cert.KernelIdeal.Hand

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen SageNet

variable (m : (ℓ : Loc nD τ sig) → Buf (Elt Ideal) ℓ) (ρ : Dev nD → PrngReg)

set_option maxHeartbeats 4000000 in
/-- No operation of this stretch writes an argument: after it each argument buffer holds what it held before. -/
theorem host1_args (c : Dev nD) (W : Valuation τ sig (Elt Ideal)) (h : ArgsAt m c W) :
    ArgsAt m c (StableHlo.after (hostOps1 (F := Ideal)) W) := by
  obtain ⟨h0, h1, h4, h5, h6, h7, h9, h10, h11, h15, h16, h17, h18, h19⟩ := h
  refine ⟨?_, ?_, ?_, ?_, ?_, ?_, ?_, ?_, ?_, ?_, ?_, ?_, ?_, ?_⟩ <;> (dsimp only [hostOps1]; after_results_simp; assumption)

set_option maxHeartbeats 4000000 in
/-- The second stretch leaves the mean of the merchants' rows over each customer's incoming edges. -/
theorem host1_v37 (W : Valuation τ sig (Elt Ideal)) :
    StableHlo.after (hostOps1 (F := Ideal)) W (Proc.devRef .tc main_v37)
      = smC (W (Proc.devRef .tc main_arg1)) (W (Proc.devRef .tc main_arg4)) (W (Proc.devRef .tc main_arg5)) := by
  dsimp only [hostOps1]; after_results_simp; rfl

set_option maxHeartbeats 4000000 in
/-- ... and the second bias as a row. -/
theorem host1_v38 (W : Valuation τ sig (Elt Ideal)) :
    StableHlo.after (hostOps1 (F := Ideal)) W (Proc.devRef .tc main_v38)
      = shapeCast S1x64 (W (Proc.devRef .tc main_arg11)) shapeCasts_S64_S1x64 := by
  dsimp only [hostOps1]; after_results_simp; rfl

set_option maxHeartbeats 4000000 in
/-- It does not write the merchants' layer-one features. -/
theorem host1_v19 (W : Valuation τ sig (Elt Ideal)) :
    StableHlo.after (hostOps1 (F := Ideal)) W (Proc.devRef .tc main_v19) = W (Proc.devRef .tc main_v19) := by
  dsimp only [hostOps1]; after_results_simp

theorem args3 (c : Dev nD) : ArgsAt m c (W3 m ρ c) := host1_args m c _ (args2 m ρ c)

theorem W3_v19 (c : Dev nD) : W3 m ρ c (Proc.devRef .tc main_v19) = hM m c := (host1_v19 _).trans (W2_v19 m ρ c)

theorem W3_v37 (c : Dev nD) : W3 m ρ c (Proc.devRef .tc main_v37) = smC (m ((c : Thread nD τ).loc main_arg1)) (m ((c : Thread nD τ).loc main_arg4)) (m ((c : Thread nD τ).loc main_arg5)) := by
  have B := args2 m ρ c
  refine (host1_v37 (W2 m ρ c)).trans ?_
  rw [B.a1, B.a4, B.a5]

theorem W3_v38 (c : Dev nD) : W3 m ρ c (Proc.devRef .tc main_v38) = shapeCast S1x64 (m ((c : Thread nD τ).loc main_arg11)) shapeCasts_S64_S1x64 := by
  have B := args2 m ρ c
  refine (host1_v38 (W2 m ρ c)).trans ?_
  rw [B.a11]

/-- The customers' layer-one features as a function of the launch contents. -/
abbrev hC (c : Dev nD) : Mat 200000 64 :=
  relu (layer 200000 (smC (m ((c : Thread nD τ).loc main_arg1)) (m ((c : Thread nD τ).loc main_arg4)) (m ((c : Thread nD τ).loc main_arg5))) (m ((c : Thread nD τ).loc main_arg0)) (m ((c : Thread nD τ).loc main_arg9)) (m ((c : Thread nD τ).loc main_arg10))
    (shapeCast S1x64 (m ((c : Thread nD τ).loc main_arg11)) shapeCasts_S64_S1x64))

/-- At the second region's exit its result buffer holds the customers' layer-one features. -/
theorem W4_v39 (c : Dev nD) : W4 m ρ c (Proc.devRef .tc main_v39) = hC m c := by
  have A := args3 m ρ c
  refine (W4_arr m ρ c 5).trans ((final1 (V3 m ρ) c).trans ?_)
  show relu (layer 200000 (W3 m ρ c (Proc.devRef .tc main_v37)) (W3 m ρ c (Proc.devRef .tc main_arg0)) (W3 m ρ c (Proc.devRef .tc main_arg9))
    (W3 m ρ c (Proc.devRef .tc main_arg10)) (W3 m ρ c (Proc.devRef .tc main_v38))) = _
  rw [A.a0, A.a9, A.a10, W3_v37 m ρ c, W3_v38 m ρ c]

/-- Every argument still holds its launch contents, and the merchants' features are where they were. -/
theorem args4 (c : Dev nD) : ArgsAt m c (W4 m ρ c) := by
  obtain ⟨h0, h1, h4, h5, h6, h7, h9, h10, h11, h15, h16, h17, h18, h19⟩ := args3 m ρ c
  exact ⟨((W4_arr m ρ c 1).trans (((dat1 (V3 m ρ) c).arrAt_in 1 rfl _).trans (A_eq1 (V3 m ρ) c 1))).trans h0,
     (W4_of_ne m ρ c main_arg1 (by decide)).trans h1,
     (W4_of_ne m ρ c main_arg4 (by decide)).trans h4,
     (W4_of_ne m ρ c main_arg5 (by decide)).trans h5,
     (W4_of_ne m ρ c main_arg6 (by decide)).trans h6,
     (W4_of_ne m ρ c main_arg7 (by decide)).trans h7,
     ((W4_arr m ρ c 2).trans (((dat1 (V3 m ρ) c).arrAt_in 2 rfl _).trans (A_eq1 (V3 m ρ) c 2))).trans h9,
     ((W4_arr m ρ c 3).trans (((dat1 (V3 m ρ) c).arrAt_in 3 rfl _).trans (A_eq1 (V3 m ρ) c 3))).trans h10,
     (W4_of_ne m ρ c main_arg11 (by decide)).trans h11,
     (W4_of_ne m ρ c main_arg15 (by decide)).trans h15,
     (W4_of_ne m ρ c main_arg16 (by decide)).trans h16,
     (W4_of_ne m ρ c main_arg17 (by decide)).trans h17,
     (W4_of_ne m ρ c main_arg18 (by decide)).trans h18,
     (W4_of_ne m ρ c main_arg19 (by decide)).trans h19⟩

theorem W4_v19 (c : Dev nD) : W4 m ρ c (Proc.devRef .tc main_v19) = hM m c :=
  (W4_of_ne m ρ c main_v19 (by decide)).trans (W3_v19 m ρ c)

end Cert.KernelIdeal.Hand

end
-- ==== Proof.Region2.lean ====
/-
  The third dense layer's region: the customers' layer-two features.

  The grid has forty points. Point t fetches rows 5000 t .. 5000 t + 4999 of the mean of the neighbouring merchants'
  layer-one features and of the customers' own layer-one features, and the whole of the two weight matrices and of the
  bias row; its body writes the dense layer of that block of rows (no relu here), and the block is written back to the
  same rows of the result. By row locality the block of the layer is the layer of the block, and the forty blocks tile
  the 200000 rows, so after the last point the result array holds the layer of the whole matrices as the region found them.
-/
import proofs.«145847_j22033182228530_1_alg».proof.Proof.Gen.KernelIdeal.Frame
import proofs.«145847_j22033182228530_1_alg».proof.Proof.SageSpec

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen SageNet

variable (V : (c : Dev nD) → (b : Ref sig .tc) → Buf (Elt Ideal) ((c : Thread nD τ).loc b))

theorem hz2 : (![0, 0] : Fin 2 → Nat) = fun _ => 0 := funext fun a => by fin_cases a <;> rfl

/-- The body's stored value is the dense layer of its five loaded blocks. -/
theorem pay2 (x0 x1 : Vec Ideal S5000x64 .f32) (x2 x3 : Vec Ideal S64x64 .f32) (x4 : Vec Ideal S1x64 .f32) :
    k2_pay1 (F := Ideal) x0 x1 x2 x3 x4 = layer 5000 x0 x1 x2 x3 x4 := by
  unfold k2_pay1
  dsimp only
  rw [shapeCast_self, shapeCast_self, shapeCast_self]
  exact layer_body 5000 dot_S5000x64_S64x64_S5000x64_1_0_0_1_n_n rfl x0 x1 x2 x3 x4 bitsLt_bf16_f32
    broadcasts_S1x64_S5000x64

/-- The printed index maps over the grid: the three row-blocked windows sit at block row t, the others at the origin. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row y of point t's block of the aggregated features is row 5000 t + y of the array. -/
theorem blk2_0 (c : Dev nD) (t : Fin cfg2.N) (y : S5000x64.Idx) (i : S200000x64.Idx)
    (h0 : (i 0).val = 5000 * t.val + (y 0).val) (h1 : (i 1).val = (y 1).val) :
    (iblk2 V c 0 t : Vec Ideal S5000x64 .f32) y = (V c main_v57 : S200000x64.Idx → EReal) i := by
  obtain ⟨e0, e1, -⟩ := idx2 t
  unfold iblk2
  rw [View.read_apply]
  show (V c main_v57 : S200000x64.Idx → EReal) _ = V c main_v57 _
  congr 1
  funext a
  apply Fin.ext
  match a with
  | ⟨0, _⟩ => show win2_0.index t 0 * 5000 + 1 * (y 0).val = (i 0).val; rw [e0, h0]; omega
  | ⟨1, _⟩ => show win2_0.index t 1 * 64 + 1 * (y 1).val = (i 1).val; rw [e1, h1]; omega

/-- The same for the block of the nodes' own features. -/
theorem blk2_1 (c : Dev nD) (t : Fin cfg2.N) (y : S5000x64.Idx) (i : S200000x64.Idx)
    (h0 : (i 0).val = 5000 * t.val + (y 0).val) (h1 : (i 1).val = (y 1).val) :
    (iblk2 V c 1 t : Vec Ideal S5000x64 .f32) y = (V c main_v39 : S200000x64.Idx → EReal) i := by
  obtain ⟨-, -, e0, e1, -⟩ := idx2 t
  unfold iblk2
  rw [View.read_apply]
  show (V c main_v39 : S200000x64.Idx → EReal) _ = V c main_v39 _
  congr 1
  funext a
  apply Fin.ext
  match a with
  | ⟨0, _⟩ => show win2_1.index t 0 * 5000 + 1 * (y 0).val = (i 0).val; rw [e0, h0]; omega
  | ⟨1, _⟩ => show win2_1.index t 1 * 64 + 1 * (y 1).val = (i 1).val; rw [e1, h1]; omega

/-- The weight windows and the bias window are fetched whole: their block is the array. -/
theorem blk2_2 (c : Dev nD) (t : Fin cfg2.N) : (iblk2 V c 2 t : Vec Ideal S64x64 .f32) = V c main_arg15 := by
  obtain ⟨-, -, -, -, e0, e1, -⟩ := idx2 t
  funext y
  unfold iblk2
  rw [View.read_apply]
  show (V c main_arg15 : S64x64.Idx → EReal) _ = V c main_arg15 _
  congr 1
  funext a
  apply Fin.ext
  match a with
  | ⟨0, _⟩ => show win2_2.index t 0 * 64 + 1 * (y 0).val = (y 0).val; rw [e0]; omega
  | ⟨1, _⟩ => show win2_2.index t 1 * 64 + 1 * (y 1).val = (y 1).val; rw [e1]; omega

theorem blk2_3 (c : Dev nD) (t : Fin cfg2.N) : (iblk2 V c 3 t : Vec Ideal S64x64 .f32) = V c main_arg16 := by
  obtain ⟨-, -, -, -, -, -, e0, e1, -⟩ := idx2 t
  funext y
  unfold iblk2
  rw [View.read_apply]
  show (V c main_arg16 : S64x64.Idx → EReal) _ = V c main_arg16 _
  congr 1
  funext a
  apply Fin.ext
  match a with
  | ⟨0, _⟩ => show win2_3.index t 0 * 64 + 1 * (y 0).val = (y 0).val; rw [e0]; omega
  | ⟨1, _⟩ => show win2_3.index t 1 * 64 + 1 * (y 1).val = (y 1).val; rw [e1]; omega

theorem blk2_4 (c : Dev nD) (t : Fin cfg2.N) : (iblk2 V c 4 t : Vec Ideal S1x64 .f32) = V c main_v58 := by
  obtain ⟨-, -, -, -, -, -, -, -, e0, e1, -⟩ := idx2 t
  funext y
  unfold iblk2
  rw [View.read_apply]
  show (V c main_v58 : S1x64.Idx → EReal) _ = V c main_v58 _
  congr 1
  funext a
  apply Fin.ext
  match a with
  | ⟨0, _⟩ => show win2_4.index t 0 * 1 + 1 * (y 0).val = (y 0).val; rw [e0]; omega
  | ⟨1, _⟩ => show win2_4.index t 1 * 64 + 1 * (y 1).val = (y 1).val; rw [e1]; omega

/-- The customers' layer-two features, as one function of the arrays the region finds. -/
abbrev res2 (c : Dev nD) : Mat 200000 64 :=
  layer 200000 (V c main_v57) (V c main_v39) (V c main_arg15) (V c main_arg16) (V c main_v58)

/-- What point t writes back is block t of that function. -/
theorem flushed2 (c : Dev nD) (t : Fin cfg2.N) :
    (dat2 V c).flushed 5 t = ((cfg2.win 5).blk t).view.read (Elt Ideal) (res2 V c) := by
  show (cfg2.win 5).cut (grid2.coords t) ((dat2 V c).after 5 t) = _
  rw [after2_5]
  unfold out2_5
  rw [View.canon_unit_zero hz2]
  simp only [View.ld_unit_zero (S := S5000x64) hz2, View.ld_unit_zero (S := S64x64) hz2, View.ld_unit_zero (S := S1x64) hz2]
  obtain ⟨-, -, -, -, -, -, -, -, -, -, e0, e1⟩ := idx2 t
  funext j
  show k2_pay1 (iblk2 V c 0 t) (iblk2 V c 1 t) (iblk2 V c 2 t) (iblk2 V c 3 t) (iblk2 V c 4 t) j
    = res2 V c (((cfg2.win 5).blk t).view.emb j)
  refine (congrFun (pay2 _ _ _ _ _) j).trans ?_
  have hr : ((((cfg2.win 5).blk t).view.emb j) 0).val = 5000 * t.val + (j 0).val := by
    show win2_5.index t 0 * 5000 + 1 * (j 0).val = _; rw [e0]; omega
  have hc : ((((cfg2.win 5).blk t).view.emb j) 1).val = (j 1).val := by
    show win2_5.index t 1 * 64 + 1 * (j 1).val = _; rw [e1]; omega
  rw [blk2_2 V c t, blk2_3 V c t, blk2_4 V c t]
  exact layer_rows 200000 5000 _ _ _ _ _ _ _ j _ (Fin.ext hc.symm)
    (fun k => blk2_0 V c t _ _ hr rfl) (fun k => blk2_1 V c t _ _ hr rfl)

/-- An index of the result array is in point t's block iff its row is among the block's 5000 rows. -/
theorem mem_blk2 (t : Fin cfg2.N) (i : S200000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v59).slice (win2_5.rect t)).set ↔ _
  rw [View.set_slice_whole, Rect.mem_set_unit]
  exact Iff.rfl

/-- Every row of the result lies in the block of the point that owns it. -/
theorem cover2 (i : S200000x64.Idx) :
    ∃ t : Fin cfg2.N, (cfg2.win 5).flush t = true ∧ i ∈ ((cfg2.win 5).blk t).view.set := by
  have hi0 : (i 0).val < 200000 := (i 0).isLt
  have hi1 : (i 1).val < 64 := (i 1).isLt
  have ht : (i 0).val / 5000 < cfg2.N := by show _ < 40; omega
  obtain ⟨t, htv⟩ : ∃ t : Fin cfg2.N, t.val = (i 0).val / 5000 := ⟨⟨_, ht⟩, rfl⟩
  obtain ⟨-, -, -, -, -, -, -, -, -, -, e0, e1⟩ := idx2 t
  refine ⟨t, flush2_5 t, (mem_blk2 t i).mpr fun a => ?_⟩
  match a with
  | ⟨0, _⟩ =>
    show win2_5.index t 0 * 5000 ≤ (i 0).val ∧ (i 0).val < win2_5.index t 0 * 5000 + 5000
    rw [e0, htv]; omega
  | ⟨1, _⟩ =>
    show win2_5.index t 1 * 64 ≤ (i 1).val ∧ (i 1).val < win2_5.index t 1 * 64 + 64
    rw [e1]; omega

/-- After the last point the result array holds that function of the arrays the region found. -/
theorem final2 (c : Dev nD) : (dat2 V c).arrAt 5 cfg2.N = res2 V c :=
  (dat2 V c).arrAt_eq_of_cover 5 (res2 V c) (fun t _ => flushed2 V c t) (cover2)

end Cert.KernelIdeal.Hand

end
-- ==== Proof.Chain2.lean ====
/-
  The kernel program from its second region's exit to its third region's exit.

  The third stretch of host operations computes the mean of the merchants' layer-one features over each customer's
  incoming edges and the third bias as a row; it writes neither an argument nor the customers' layer-one features. The
  third region leaves in its result array the customers' layer-two features and every other buffer as it was.
-/
import proofs.«145847_j22033182228530_1_alg».proof.Proof.Chain1
import proofs.«145847_j22033182228530_1_alg».proof.Proof.Region2

set_option maxRecDepth 16384

noncomputable section

namespace Cert.KernelIdeal.Hand

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen SageNet

variable (m : (ℓ : Loc nD τ sig) → Buf (Elt Ideal) ℓ) (ρ : Dev nD → PrngReg)

set_option maxHeartbeats 4000000 in
/-- No operation of this stretch writes an argument: after it each argument buffer holds what it held before. -/
theorem host2_args (c : Dev nD) (W : Valuation τ sig (Elt Ideal)) (h : ArgsAt m c W) :
    ArgsAt m c (StableHlo.after (hostOps2 (F := Ideal)) W) := by
  obtain ⟨h0, h1, h4, h5, h6, h7, h9, h10, h11, h15, h16, h17, h18, h19⟩ := h
  refine ⟨?_, ?_, ?_, ?_, ?_, ?_, ?_, ?_, ?_, ?_, ?_, ?_, ?_, ?_⟩ <;> (dsimp only [hostOps2]; after_results_simp; assumption)

set_option maxHeartbeats 4000000 in
/-- The third stretch leaves the mean of the merchants' layer-one features over each customer's incoming edges. -/
theorem host2_v57 (W : Valuation τ sig (Elt Ideal)) :
    StableHlo.after (hostOps2 (F := Ideal)) W (Proc.devRef .tc main_v57)
      = smC (W (Proc.devRef .tc main_v19)) (W (Proc.devRef .tc main_arg4)) (W (Proc.devRef .tc main_arg5)) := by
  dsimp only [hostOps2]; after_results_simp; rfl

set_option maxHeartbeats 4000000 in
/-- ... and the third bias as a row. -/
theorem host2_v58 (W : Valuation τ sig (Elt Ideal)) :
    StableHlo.after (hostOps2 (F := Ideal)) W (Proc.devRef .tc main_v58)
      = shapeCast S1x64 (W (Proc.devRef .tc main_arg17)) shapeCasts_S64_S1x64 := by
  dsimp only [hostOps2]; after_results_simp; rfl

set_option maxHeartbeats 4000000 in
/-- It does not write the customers' layer-one features. -/
theorem host2_v39 (W : Valuation τ sig (Elt Ideal)) :
    StableHlo.after (hostOps2 (F := Ideal)) W (Proc.devRef .tc main_v39) = W (Proc.devRef .tc main_v39) := by
  dsimp only [hostOps2]; after_results_simp

theorem args5 (c : Dev nD) : ArgsAt m c (W5 m ρ c) := host2_args m c _ (args4 m ρ c)

theorem W5_v39 (c : Dev nD) : W5 m ρ c (Proc.devRef .tc main_v39) = hC m c := (host2_v39 _).trans (W4_v39 m ρ c)

theorem W5_v57 (c : Dev nD) : W5 m ρ c (Proc.devRef .tc main_v57) = smC (hM m c) (m ((c : Thread nD τ).loc main_arg4)) (m ((c : Thread nD τ).loc main_arg5)) := by
  have B := args4 m ρ c
  refine (host2_v57 (W4 m ρ c)).trans ?_
  rw [W4_v19 m ρ c, B.a4, B.a5]

theorem W5_v58 (c : Dev nD) : W5 m ρ c (Proc.devRef .tc main_v58) = shapeCast S1x64 (m ((c : Thread nD τ).loc main_arg17)) shapeCasts_S64_S1x64 := by
  have B := args4 m ρ c
  refine (host2_v58 (W4 m ρ c)).trans ?_
  rw [B.a17]

/-- The customers' layer-two features as a function of the launch contents. -/
abbrev h2C (c : Dev nD) : Mat 200000 64 :=
  layer 200000 (smC (hM m c) (m ((c : Thread nD τ).loc main_arg4)) (m ((c : Thread nD τ).loc main_arg5))) (hC m c) (m ((c : Thread nD τ).loc main_arg15)) (m ((c : Thread nD τ).loc main_arg16))
    (shapeCast S1x64 (m ((c : Thread nD τ).loc main_arg17)) shapeCasts_S64_S1x64)

/-- At the third region's exit its result buffer holds the customers' layer-two features. -/
theorem W6_v59 (c : Dev nD) : W6 m ρ c (Proc.devRef .tc main_v59) = h2C m c := by
  have A := args5 m ρ c
  refine (W6_arr m ρ c 5).trans ((final2 (V5 m ρ) c).trans ?_)
  show layer 200000 (W5 m ρ c (Proc.devRef .tc main_v57)) (W5 m ρ c (Proc.devRef .tc main_v39)) (W5 m ρ c (Proc.devRef .tc main_arg15))
    (W5 m ρ c (Proc.devRef .tc main_arg16)) (W5 m ρ c (Proc.devRef .tc main_v58)) = _
  rw [A.a15, A.a16, W5_v57 m ρ c, W5_v58 m ρ c, W5_v39 m ρ c]

/-- Every argument still holds its launch contents. -/
theorem args6 (c : Dev nD) : ArgsAt m c (W6 m ρ c) := by
  obtain ⟨h0, h1, h4, h5, h6, h7, h9, h10, h11, h15, h16, h17, h18, h19⟩ := args5 m ρ c
  exact ⟨(W6_of_ne m ρ c main_arg0 (by decide)).trans h0,
     (W6_of_ne m ρ c main_arg1 (by decide)).trans h1,
     (W6_of_ne m ρ c main_arg4 (by decide)).trans h4,
     (W6_of_ne m ρ c main_arg5 (by decide)).trans h5,
     (W6_of_ne m ρ c main_arg6 (by decide)).trans h6,
     (W6_of_ne m ρ c main_arg7 (by decide)).trans h7,
     (W6_of_ne m ρ c main_arg9 (by decide)).trans h9,
     (W6_of_ne m ρ c main_arg10 (by decide)).trans h10,
     (W6_of_ne m ρ c main_arg11 (by decide)).trans h11,
     ((W6_arr m ρ c 2).trans (((dat2 (V5 m ρ) c).arrAt_in 2 rfl _).trans (A_eq2 (V5 m ρ) c 2))).trans h15,
     ((W6_arr m ρ c 3).trans (((dat2 (V5 m ρ) c).arrAt_in 3 rfl _).trans (A_eq2 (V5 m ρ) c 3))).trans h16,
     (W6_of_ne m ρ c main_arg17 (by decide)).trans h17,
     (W6_of_ne m ρ c main_arg18 (by decide)).trans h18,
     (W6_of_ne m ρ c main_arg19 (by decide)).trans h19⟩

end Cert.KernelIdeal.Hand

end
-- ==== Proof.Region3.lean ====
/-
  The last region: the linear map to the two output columns.

  The grid has forty points. Point t fetches rows 5000 t .. 5000 t + 4999 of the customers' layer-two features and the
  whole of the [64, 2] weight matrix and of the bias row; its body writes that block times the weights plus the bias
  row, and the block is written back to the same rows of the output. A row of the product reads the same row of the
  left operand only, and the forty blocks tile the 200000 rows, so after the last point the output array holds the
  linear map of the whole matrix as the region found it.
-/
import proofs.«145847_j22033182228530_1_alg».proof.Proof.Gen.KernelIdeal.Frame
import proofs.«145847_j22033182228530_1_alg».proof.Proof.SageSpec

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen SageNet

variable (V : (c : Dev nD) → (b : Ref sig .tc) → Buf (Elt Ideal) ((c : Thread nD τ).loc b))

theorem hz3 : (![0, 0] : Fin 2 → Nat) = fun _ => 0 := funext fun a => by fin_cases a <;> rfl

/-- The body's stored value is the linear map of its three loaded blocks. -/
theorem pay3 (x0 : Vec Ideal S5000x64 .f32) (x1 : Vec Ideal S64x2 .f32) (x2 : Vec Ideal S1x2 .f32) :
    k3_pay1 (F := Ideal) x0 x1 x2 = lin 5000 x0 x1 x2 := by
  unfold k3_pay1
  dsimp only
  rw [shapeCast_self, shapeCast_self]
  exact lin_body 5000 dot_S5000x64_S64x2_S5000x2_1_0_0_1_n_n rfl x0 x1 x2 bitsLt_bf16_f32 broadcasts_S1x2_S5000x2

/-- The printed index maps over the grid: the two row-blocked windows sit at block row t, the others at the origin. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row y of point t's block of the features is row 5000 t + y of the array. -/
theorem blk3_0 (c : Dev nD) (t : Fin cfg3.N) (y : S5000x64.Idx) (i : S200000x64.Idx)
    (h0 : (i 0).val = 5000 * t.val + (y 0).val) (h1 : (i 1).val = (y 1).val) :
    (iblk3 V c 0 t : Vec Ideal S5000x64 .f32) y = (V c main_v59 : S200000x64.Idx → EReal) i := by
  obtain ⟨e0, e1, -⟩ := idx3 t
  unfold iblk3
  rw [View.read_apply]
  show (V c main_v59 : S200000x64.Idx → EReal) _ = V c main_v59 _
  congr 1
  funext a
  apply Fin.ext
  match a with
  | ⟨0, _⟩ => show win3_0.index t 0 * 5000 + 1 * (y 0).val = (i 0).val; rw [e0, h0]; omega
  | ⟨1, _⟩ => show win3_0.index t 1 * 64 + 1 * (y 1).val = (i 1).val; rw [e1, h1]; omega

/-- The weight window and the bias window are fetched whole: their block is the array. -/
theorem blk3_1 (c : Dev nD) (t : Fin cfg3.N) : (iblk3 V c 1 t : Vec Ideal S64x2 .f32) = V c main_arg18 := by
  obtain ⟨-, -, e0, e1, -⟩ := idx3 t
  funext y
  unfold iblk3
  rw [View.read_apply]
  show (V c main_arg18 : S64x2.Idx → EReal) _ = V c main_arg18 _
  congr 1
  funext a
  apply Fin.ext
  match a with
  | ⟨0, _⟩ => show win3_1.index t 0 * 64 + 1 * (y 0).val = (y 0).val; rw [e0]; omega
  | ⟨1, _⟩ => show win3_1.index t 1 * 2 + 1 * (y 1).val = (y 1).val; rw [e1]; omega

theorem blk3_2 (c : Dev nD) (t : Fin cfg3.N) : (iblk3 V c 2 t : Vec Ideal S1x2 .f32) = V c main_v60 := by
  obtain ⟨-, -, -, -, e0, e1, -⟩ := idx3 t
  funext y
  unfold iblk3
  rw [View.read_apply]
  show (V c main_v60 : S1x2.Idx → EReal) _ = V c main_v60 _
  congr 1
  funext a
  apply Fin.ext
  match a with
  | ⟨0, _⟩ => show win3_2.index t 0 * 1 + 1 * (y 0).val = (y 0).val; rw [e0]; omega
  | ⟨1, _⟩ => show win3_2.index t 1 * 2 + 1 * (y 1).val = (y 1).val; rw [e1]; omega

/-- The network's output, as one function of the arrays the region finds. -/
abbrev res3 (c : Dev nD) : Mat 200000 2 :=
  lin 200000 (V c main_v59) (V c main_arg18) (V c main_v60)

/-- What point t writes back is block t of that function. -/
theorem flushed3 (c : Dev nD) (t : Fin cfg3.N) :
    (dat3 V c).flushed 3 t = ((cfg3.win 3).blk t).view.read (Elt Ideal) (res3 V c) := by
  show (cfg3.win 3).cut (grid3.coords t) ((dat3 V c).after 3 t) = _
  rw [after3_3]
  unfold out3_3
  rw [View.canon_unit_zero hz3]
  simp only [View.ld_unit_zero (S := S5000x64) hz3, View.ld_unit_zero (S := S64x2) hz3, View.ld_unit_zero (S := S1x2) hz3]
  obtain ⟨-, -, -, -, -, -, e0, e1⟩ := idx3 t
  funext j
  show k3_pay1 (iblk3 V c 0 t) (iblk3 V c 1 t) (iblk3 V c 2 t) j
    = res3 V c (((cfg3.win 3).blk t).view.emb j)
  refine (congrFun (pay3 _ _ _) j).trans ?_
  have hr : ((((cfg3.win 3).blk t).view.emb j) 0).val = 5000 * t.val + (j 0).val := by
    show win3_3.index t 0 * 5000 + 1 * (j 0).val = _; rw [e0]; omega
  have hc : ((((cfg3.win 3).blk t).view.emb j) 1).val = (j 1).val := by
    show win3_3.index t 1 * 2 + 1 * (j 1).val = _; rw [e1]; omega
  rw [blk3_1 V c t, blk3_2 V c t]
  exact lin_rows 200000 5000 _ _ _ _ j _ (Fin.ext hc.symm) (fun k => blk3_0 V c t _ _ hr rfl)

/-- An index of the output array is in point t's block iff its row is among the block's 5000 rows. -/
theorem mem_blk3 (t : Fin cfg3.N) (i : S200000x2.Idx) :
    i ∈ ((cfg3.win 3).blk t).view.set ↔ ∀ a : Fin 2, win3_3.index t a * S5000x2.size a ≤ (i a).val
      ∧ (i a).val < win3_3.index t a * S5000x2.size a + S5000x2.size a := by
  show i ∈ ((View.whole main_v61).slice (win3_3.rect t)).set ↔ _
  rw [View.set_slice_whole, Rect.mem_set_unit]
  exact Iff.rfl

/-- Every row of the output lies in the block of the point that owns it. -/
theorem cover3 (i : S200000x2.Idx) :
    ∃ t : Fin cfg3.N, (cfg3.win 3).flush t = true ∧ i ∈ ((cfg3.win 3).blk t).view.set := by
  have hi0 : (i 0).val < 200000 := (i 0).isLt
  have hi1 : (i 1).val < 2 := (i 1).isLt
  have ht : (i 0).val / 5000 < cfg3.N := by show _ < 40; omega
  obtain ⟨t, htv⟩ : ∃ t : Fin cfg3.N, t.val = (i 0).val / 5000 := ⟨⟨_, ht⟩, rfl⟩
  obtain ⟨-, -, -, -, -, -, e0, e1⟩ := idx3 t
  refine ⟨t, flush3_3 t, (mem_blk3 t i).mpr fun a => ?_⟩
  match a with
  | ⟨0, _⟩ =>
    show win3_3.index t 0 * 5000 ≤ (i 0).val ∧ (i 0).val < win3_3.index t 0 * 5000 + 5000
    rw [e0, htv]; omega
  | ⟨1, _⟩ =>
    show win3_3.index t 1 * 2 ≤ (i 1).val ∧ (i 1).val < win3_3.index t 1 * 2 + 2
    rw [e1]; omega

/-- After the last point the output array holds the linear map of the arrays the region found. -/
theorem final3 (c : Dev nD) : (dat3 V c).arrAt 3 cfg3.N = res3 V c :=
  (dat3 V c).arrAt_eq_of_cover 3 (res3 V c) (fun t _ => flushed3 V c t) cover3

end Cert.KernelIdeal.Hand

end
-- ==== Proof.RunResult.lean ====
/-
  The kernel program's run, with its result named.

  The program is four grid regions among stretches of host operations. Its run is followed boundary by boundary: the
  buffer contents at a boundary are a function of those at the previous one (a stretch applies its operations; a region
  leaves in each of its arrays what its points wrote back and every other buffer untouched). Every weakly fair execution
  terminates without a fault in a state that holds, in every buffer that outlives the regions, the last boundary's
  contents. Read at the arguments this gives that they end as launched; read at the result buffer it gives the
  network's output as the last boundary's contents there, which the later modules compute.
-/
import proofs.«145847_j22033182228530_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and every argument array as launched. -/
theorem run_result : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c)⟩)

end Cert.KernelIdeal.Hand

end
-- ==== Proof.Chain3.lean ====
/-
  The kernel program's last stretch and last region: its result is the network's output.

  The last stretch of host operations only reshapes the final bias to a row; the last region leaves in the result
  array the linear map of the customers' layer-two features. Unfolding the three earlier stages, the result array at
  the end of the run is the network's output (over this program's two segment means) at the launch contents of the
  arguments.
-/
import proofs.«145847_j22033182228530_1_alg».proof.Proof.Chain2
import proofs.«145847_j22033182228530_1_alg».proof.Proof.Region3
import proofs.«145847_j22033182228530_1_alg».proof.Proof.RunResult

set_option maxRecDepth 16384

noncomputable section

namespace Cert.KernelIdeal.Hand

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen SageNet

variable (m : (ℓ : Loc nD τ sig) → Buf (Elt Ideal) ℓ) (ρ : Dev nD → PrngReg)

set_option maxHeartbeats 4000000 in
/-- The last stretch leaves the final bias as a row. -/
theorem host3_v60 (W : Valuation τ sig (Elt Ideal)) :
    StableHlo.after (hostOps3 (F := Ideal)) W (Proc.devRef .tc main_v60)
      = shapeCast S1x2 (W (Proc.devRef .tc main_arg19)) shapeCasts_S2_S1x2 := by
  dsimp only [hostOps3]; after_results_simp; rfl

set_option maxHeartbeats 4000000 in
/-- It writes neither the customers' layer-two features nor the final weights. -/
theorem host3_v59 (W : Valuation τ sig (Elt Ideal)) :
    StableHlo.after (hostOps3 (F := Ideal)) W (Proc.devRef .tc main_v59) = W (Proc.devRef .tc main_v59) := by
  dsimp only [hostOps3]; after_results_simp

set_option maxHeartbeats 4000000 in
theorem host3_arg18 (W : Valuation τ sig (Elt Ideal)) :
    StableHlo.after (hostOps3 (F := Ideal)) W (Proc.devRef .tc main_arg18) = W (Proc.devRef .tc main_arg18) := by
  dsimp only [hostOps3]; after_results_simp

theorem W7_v59 (c : Dev nD) : W7 m ρ c (Proc.devRef .tc main_v59) = h2C m c := (host3_v59 _).trans (W6_v59 m ρ c)

theorem W7_arg18 (c : Dev nD) : W7 m ρ c (Proc.devRef .tc main_arg18) = m ((c : Thread nD τ).loc main_arg18) :=
  (host3_arg18 _).trans (args6 m ρ c).a18

theorem W7_v60 (c : Dev nD) : W7 m ρ c (Proc.devRef .tc main_v60) = shapeCast S1x2 (m ((c : Thread nD τ).loc main_arg19)) shapeCasts_S2_S1x2 := by
  have B := args6 m ρ c
  refine (host3_v60 (W6 m ρ c)).trans ?_
  rw [B.a19]

/-- The network's output at the launch contents of the arguments, over this program's two segment means. -/
abbrev kOut (c : Dev nD) : Mat 200000 2 :=
  net smM smC (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg15))
    (m ((c : Thread nD τ).loc main_arg16))
    (m ((c : Thread nD τ).loc main_arg17))
    (m ((c : Thread nD τ).loc main_arg18))
    (m ((c : Thread nD τ).loc main_arg19))

/-- At the end of the run the result buffer holds the network's output at the launch contents of the arguments. -/
theorem W8_v61 (c : Dev nD) : W8 m ρ c (Proc.devRef .tc main_v61) = kOut m c := by
  refine (W8_arr m ρ c 3).trans ((final3 (V7 m ρ) c).trans ?_)
  show lin 200000 (W7 m ρ c (Proc.devRef .tc main_v59)) (W7 m ρ c (Proc.devRef .tc main_arg18)) (W7 m ρ c (Proc.devRef .tc main_v60)) = _
  rw [W7_v59 m ρ c, W7_arg18 m ρ c, W7_v60 m ρ c]
  rfl

/-- The kernel program's run with its result named: every weakly fair execution terminates, nothing faulting, with the
    result array at the network's output and every argument as launched. -/
theorem kernel_run : θ_run defs (onTc (τ := τ) (main (F := Ideal))) ⟨m, fun _ => 0, ρ⟩ (fun r => ∀ c : Dev nD,
      r.2.mem ((c.tc : Thread nD τ).loc main_v61) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c).1.trans (W8_v61 m ρ c), (h c).2⟩) (run_result (F := Ideal) m ρ)

end Cert.KernelIdeal.Hand

end
-- ==== Proof.RefValue.lean ====
/-
  The reference program's result is the network's output.

  The reference computes on the host, array by array: the mean of the customers' rows over each merchant's incoming
  edges, a dense layer and a relu for the merchants; the same for the customers; for the customers' second layer the
  mean of the neighbouring merchants' new rows and a dense layer; and the final linear map. Each dense layer is two
  dot_generals and a bias broadcast twice, each relu a maximum with a broadcast zero: on the extended reals these are
  the layer, the relu and the linear map of the specification, so the whole term is the network's output over the
  reference's own two segment means. (Its second layer for the merchants feeds nothing and is not part of the term.)
-/
import proofs.«145847_j22033182228530_1_alg».proof.Proof.Gen.ReferenceIdeal.Run
import proofs.«145847_j22033182228530_1_alg».proof.Proof.SageSpec

set_option maxRecDepth 16384

noncomputable section

namespace Cert.ReferenceIdeal.Hand

open Idealize.ShloMosaic Idealize.ShloMosaic.TcCoe Idealize.SL.Sem Idealize.ShloMosaic.ValueIdx
open Cert.ReferenceIdeal Cert.ReferenceIdeal.Gen SageNet

/-- The mean over incoming edges, customers to merchants, exactly as both programs spell it on the host: the rows
    `x[src e]` gathered (a negative endpoint wrapped once by the table's length), added into the row `dst e` of a zero
    table, and divided by the number of incoming edges or by one where there is none. Kept as one function: the
    proof never opens the gather or the scatter. -/
def smM (x : FVec Ideal S200000x64 .f32) (src dst : IVec S1000000 32) : FVec Ideal S50000x64 .f32 :=
  Host.divf (F := Ideal) (Host.scatterAdd scatter_S50000x64_S1000000x1_S1000000x64_1_0_0_1 (broadcastInDim S50000x64 ![] bcast_S_S50000x64 (constant S_ .f32 0x00000000#32)) (broadcastInDim S1000000x1 ![0] bcast_S1000000_S1000000x1_0 dst) (Host.gather gather_S200000x64_S1000000x1_S1000000x64_1_0_n_n_0_1_164 x (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 200000#32))) src)))) (broadcastInDim S50000x64 ![0, 1] bcast_S50000x1_S50000x64_0_1 (maximumf (Host.scatterAdd scatter_S50000x1_S1000000x1_S1000000x1_1_0_0_1 (broadcastInDim S50000x1 ![] bcast_S_S50000x1 (constant S_ .f32 0x00000000#32)) (broadcastInDim S1000000x1 ![0] bcast_S1000000_S1000000x1_0 dst) (broadcastInDim S1000000x1 ![] bcast_S_S1000000x1 (constant S_ .f32 0x3F800000#32))) (broadcastInDim S50000x1 ![] bcast_S_S50000x1 (constant S_ .f32 0x3F800000#32))))

/-- The same mean, merchants to customers. -/
def smC (x : FVec Ideal S50000x64 .f32) (src dst : IVec S1000000 32) : FVec Ideal S200000x64 .f32 :=
  Host.divf (F := Ideal) (Host.scatterAdd scatter_S200000x64_S1000000x1_S1000000x64_1_0_0_1 (broadcastInDim S200000x64 ![] bcast_S_S200000x64 (constant S_ .f32 0x00000000#32)) (broadcastInDim S1000000x1 ![0] bcast_S1000000_S1000000x1_0 dst) (Host.gather gather_S50000x64_S1000000x1_S1000000x64_1_0_n_n_0_1_164 x (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 50000#32))) src)))) (broadcastInDim S200000x64 ![0, 1] bcast_S200000x1_S200000x64_0_1 (maximumf (Host.scatterAdd scatter_S200000x1_S1000000x1_S1000000x1_1_0_0_1 (broadcastInDim S200000x1 ![] bcast_S_S200000x1 (constant S_ .f32 0x00000000#32)) (broadcastInDim S1000000x1 ![0] bcast_S1000000_S1000000x1_0 dst) (broadcastInDim S1000000x1 ![] bcast_S_S1000000x1 (constant S_ .f32 0x3F800000#32))) (broadcastInDim S200000x1 ![] bcast_S_S200000x1 (constant S_ .f32 0x3F800000#32))))

/-- The reference's composed term, over its arguments as variables, is the network over these two means. -/
theorem printed_eq (a0 : FVec Ideal S200000x64 .f32) (a1 : FVec Ideal S50000x64 .f32) (a2 a3 a4 a5 : IVec S1000000 32)
    (a6 a7 : FVec Ideal S64x64 .f32) (a8 : FVec Ideal S64 .f32) (a9 a10 : FVec Ideal S64x64 .f32) (a11 : FVec Ideal S64 .f32)
    (a15 a16 : FVec Ideal S64x64 .f32) (a17 : FVec Ideal S64 .f32) (a18 : FVec Ideal S64x2 .f32) (a19 : FVec Ideal S2 .f32) :
    (addf (Host.dotGeneral dot_S200000x64_S64x2_S200000x2_1_0_0_1_n_n none (addf (addf (Host.dotGeneral dot_S200000x64_S64x64_S200000x64_1_0_0_1_n_n none (Host.divf (Host.scatterAdd scatter_S200000x64_S1000000x1_S1000000x64_1_0_0_1 (broadcastInDim S200000x64 ![] bcast_S_S200000x64 (constant S_ .f32 0x00000000#32)) (broadcastInDim S1000000x1 ![0] bcast_S1000000_S1000000x1_0 a5) (Host.gather gather_S50000x64_S1000000x1_S1000000x64_1_0_n_n_0_1_164 (maximumf (addf (addf (Host.dotGeneral dot_S50000x64_S64x64_S50000x64_1_0_0_1_n_n none (Host.divf (Host.scatterAdd scatter_S50000x64_S1000000x1_S1000000x64_1_0_0_1 (broadcastInDim S50000x64 ![] bcast_S_S50000x64 (constant S_ .f32 0x00000000#32)) (broadcastInDim S1000000x1 ![0] bcast_S1000000_S1000000x1_0 a3) (Host.gather gather_S200000x64_S1000000x1_S1000000x64_1_0_n_n_0_1_164 a0 (broadcastInDim S1000000x1 ![0] bcast_S1000000_S1000000x1_0 (select (cmpi .slt a2 (broadcastInDim S1000000 ![] bcast_S_S1000000 (constantI S_ 32 0#32))) (addi a2 (broadcastInDim S1000000 ![] bcast_S_S1000000 (constantI S_ 32 200000#32))) a2)))) (broadcastInDim S50000x64 ![0, 1] bcast_S50000x1_S50000x64_0_1 (maximumf (Host.scatterAdd scatter_S50000x1_S1000000x1_S1000000x1_1_0_0_1 (broadcastInDim S50000x1 ![] bcast_S_S50000x1 (constant S_ .f32 0x00000000#32)) (broadcastInDim S1000000x1 ![0] bcast_S1000000_S1000000x1_0 a3) (broadcastInDim S1000000x1 ![] bcast_S_S1000000x1 (constant S_ .f32 0x3F800000#32))) (broadcastInDim S50000x1 ![] bcast_S_S50000x1 (constant S_ .f32 0x3F800000#32))))) a6) (Host.dotGeneral dot_S50000x64_S64x64_S50000x64_1_0_0_1_n_n none a1 a7)) (broadcastInDim S50000x64 ![0, 1] bcast_S1x64_S50000x64_0_1 (broadcastInDim S1x64 ![1] bcast_S64_S1x64_1 a8))) (broadcastInDim S50000x64 ![] bcast_S_S50000x64 (constant S_ .f32 0x00000000#32))) (broadcastInDim S1000000x1 ![0] bcast_S1000000_S1000000x1_0 (select (cmpi .slt a4 (broadcastInDim S1000000 ![] bcast_S_S1000000 (constantI S_ 32 0#32))) (addi a4 (broadcastInDim S1000000 ![] bcast_S_S1000000 (constantI S_ 32 50000#32))) a4)))) (broadcastInDim S200000x64 ![0, 1] bcast_S200000x1_S200000x64_0_1 (maximumf (Host.scatterAdd scatter_S200000x1_S1000000x1_S1000000x1_1_0_0_1 (broadcastInDim S200000x1 ![] bcast_S_S200000x1 (constant S_ .f32 0x00000000#32)) (broadcastInDim S1000000x1 ![0] bcast_S1000000_S1000000x1_0 a5) (broadcastInDim S1000000x1 ![] bcast_S_S1000000x1 (constant S_ .f32 0x3F800000#32))) (broadcastInDim S200000x1 ![] bcast_S_S200000x1 (constant S_ .f32 0x3F800000#32))))) a15) (Host.dotGeneral dot_S200000x64_S64x64_S200000x64_1_0_0_1_n_n none (maximumf (addf (addf (Host.dotGeneral dot_S200000x64_S64x64_S200000x64_1_0_0_1_n_n none (Host.divf (Host.scatterAdd scatter_S200000x64_S1000000x1_S1000000x64_1_0_0_1 (broadcastInDim S200000x64 ![] bcast_S_S200000x64 (constant S_ .f32 0x00000000#32)) (broadcastInDim S1000000x1 ![0] bcast_S1000000_S1000000x1_0 a5) (Host.gather gather_S50000x64_S1000000x1_S1000000x64_1_0_n_n_0_1_164 a1 (broadcastInDim S1000000x1 ![0] bcast_S1000000_S1000000x1_0 (select (cmpi .slt a4 (broadcastInDim S1000000 ![] bcast_S_S1000000 (constantI S_ 32 0#32))) (addi a4 (broadcastInDim S1000000 ![] bcast_S_S1000000 (constantI S_ 32 50000#32))) a4)))) (broadcastInDim S200000x64 ![0, 1] bcast_S200000x1_S200000x64_0_1 (maximumf (Host.scatterAdd scatter_S200000x1_S1000000x1_S1000000x1_1_0_0_1 (broadcastInDim S200000x1 ![] bcast_S_S200000x1 (constant S_ .f32 0x00000000#32)) (broadcastInDim S1000000x1 ![0] bcast_S1000000_S1000000x1_0 a5) (broadcastInDim S1000000x1 ![] bcast_S_S1000000x1 (constant S_ .f32 0x3F800000#32))) (broadcastInDim S200000x1 ![] bcast_S_S200000x1 (constant S_ .f32 0x3F800000#32))))) a9) (Host.dotGeneral dot_S200000x64_S64x64_S200000x64_1_0_0_1_n_n none a0 a10)) (broadcastInDim S200000x64 ![0, 1] bcast_S1x64_S200000x64_0_1 (broadcastInDim S1x64 ![1] bcast_S64_S1x64_1 a11))) (broadcastInDim S200000x64 ![] bcast_S_S200000x64 (constant S_ .f32 0x00000000#32))) a16)) (broadcastInDim S200000x64 ![0, 1] bcast_S1x64_S200000x64_0_1 (broadcastInDim S1x64 ![1] bcast_S64_S1x64_1 a17))) a18) (broadcastInDim S200000x2 ![0, 1] bcast_S1x2_S200000x2_0_1 (broadcastInDim S1x2 ![1] bcast_S2_S1x2_1 a19)) : FVec Ideal S200000x2 .f32)
      = net smM smC a0 a1 a2 a3 a4 a5 a6 a7 a8 a9 a10 a11 a15 a16 a17 a18 a19 := by
  unfold net smM smC
  dsimp only
  rw [← lin_host 200000 dot_S200000x64_S64x2_S200000x2_1_0_0_1_n_n rfl _ a18 a19 (by decide) bcast_S2_S1x2_1
        bcast_S1x2_S200000x2_0_1,
    ← layer_host 200000 dot_S200000x64_S64x64_S200000x64_1_0_0_1_n_n rfl _ _ a15 a16 a17 (by decide) bcast_S64_S1x64_1
        bcast_S1x64_S200000x64_0_1,
    ← relu_host (M := 200000) (N := 64) _ bcast_S_S200000x64,
    ← layer_host 200000 dot_S200000x64_S64x64_S200000x64_1_0_0_1_n_n rfl _ a0 a9 a10 a11 (by decide) bcast_S64_S1x64_1
        bcast_S1x64_S200000x64_0_1,
    ← relu_host (M := 50000) (N := 64) _ bcast_S_S50000x64,
    ← layer_host 50000 dot_S50000x64_S64x64_S50000x64_1_0_0_1_n_n rfl _ a1 a6 a7 a8 (by decide) bcast_S64_S1x64_1
        bcast_S1x64_S50000x64_0_1]

/-- The reference run's result term is the network's output at the launch contents of its arguments. -/
theorem result_eq (m : (ℓ : Loc nD τ sig) → Buf (Elt Ideal) ℓ) (c : Dev nD) :
    Cert.ReferenceIdeal.Value.res_main_v101 (F := Ideal) m c
      = net smM smC (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg15)) (m ((c.tc : Thread nD τ).loc main_arg16))
          (m ((c.tc : Thread nD τ).loc main_arg17)) (m ((c.tc : Thread nD τ).loc main_arg18))
          (m ((c.tc : Thread nD τ).loc main_arg19)) := by
  unfold Cert.ReferenceIdeal.Value.res_main_v101
  exact printed_eq _ _ _ _ _ _ _ _ _ _ _ _ _ _ _ _ _

end Cert.ReferenceIdeal.Hand

end
-- ==== Proof.lean ====
/-
  Two programs compute a two-layer message-passing network on a graph of customers and merchants, and this file
  proves that they compute the same function on the extended reals.

  Both take the customers' and merchants' feature rows, four vectors of a million edge endpoints, three layers' weights
  and biases and a final linear map. Both compute every neighbour mean on the host with the same gather, the same
  scatter-add and the same division by the clamped edge count. They differ in the dense part only: the reference
  applies dot_general, a doubly broadcast bias and a maximum with zero to whole arrays; the kernel program runs each
  dense layer as a grid of blocks of 5000 rows on the matrix unit, with operands rounded to a shorter float format
  on the way in. On the extended reals rounding is the identity, a matrix-unit product into a zero accumulator is
  the same finite sum as dot_general, and a row of a dense layer reads the same row of its inputs only, so the blocks
  of the layer are the layer of the blocks: each region leaves the whole-array layer (Region0 .. Region3). Following
  the kernel program's run from boundary to boundary (Chain0 .. Chain3) its result is the network's output over its
  segment means; the reference's composed term is the same network over its own (RefValue); the two programs' segment
  means are the same host operations. No entry needs to be finite: both sides are the same sums, maxima and
  quotients, so the precondition is not used.

  The three frame claims come from the generated frame certificates and the reference's generated run; the
  idealization rewrote nothing, so its conjunct is `True`.
-/
import proofs.«145847_j22033182228530_1_alg».proof.Defs
import proofs.«145847_j22033182228530_1_alg».proof.Proof.Gen.Kernel
import proofs.«145847_j22033182228530_1_alg».proof.Proof.Gen.Kernel.Skeleton
import proofs.«145847_j22033182228530_1_alg».proof.Proof.Gen.Kernel.Launch
import proofs.«145847_j22033182228530_1_alg».proof.Proof.Gen.Kernel.Points
import proofs.«145847_j22033182228530_1_alg».proof.Proof.Gen.Kernel.Frame
import proofs.«145847_j22033182228530_1_alg».proof.Proof.Gen.KernelIdeal
import proofs.«145847_j22033182228530_1_alg».proof.Proof.Gen.KernelIdeal.Skeleton
import proofs.«145847_j22033182228530_1_alg».proof.Proof.Gen.KernelIdeal.Launch
import proofs.«145847_j22033182228530_1_alg».proof.Proof.Gen.KernelIdeal.Points
import proofs.«145847_j22033182228530_1_alg».proof.Proof.Gen.KernelIdeal.Frame
import proofs.«145847_j22033182228530_1_alg».proof.Proof.Gen.ReferenceIdeal
import proofs.«145847_j22033182228530_1_alg».proof.Proof.Gen.ReferenceIdeal.Run
import proofs.«145847_j22033182228530_1_alg».proof.Proof.Gen.Pre_finite_inputs
import proofs.«145847_j22033182228530_1_alg».proof.Proof.Chain3
import proofs.«145847_j22033182228530_1_alg».proof.Proof.RefValue
import Idealize.ShloMosaic.Adequacy
import Idealize.ShloMosaic.Init

noncomputable section

namespace Cert.Proof

open Idealize.ShloMosaic Idealize.SL.Sem SageNet

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to preserve. -/
theorem preserves : Cert.preserves_Kernel_KernelIdeal := trivial

/-- The two programs' means over a merchant's incoming edges are the same host operations on the same shapes. -/
theorem smM_eq : Cert.ReferenceIdeal.Hand.smM = Cert.KernelIdeal.Hand.smM := rfl

/-- The two programs' means over a customer's incoming edges are the same host operations on the same shapes. -/
theorem smC_eq : Cert.ReferenceIdeal.Hand.smC = Cert.KernelIdeal.Hand.smC := rfl

/-- From memories agreeing on the arguments both programs end with the network's output in their result arrays. -/
theorem algebraic : Cert.algebraic_KernelIdeal_ReferenceIdeal := by
  intro m ρ m' ρ' _ hagree
  refine ⟨fun c => Cert.KernelIdeal.Hand.kOut m c, Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17, e18, e19⟩ := hagree c
  rw [Cert.ReferenceIdeal.Hand.result_eq m' c, smM_eq, smC_eq, e0, e1, e2, e3, e4, e5, e6, e7, e8, e9, e10, e11, e15, e16, e17, e18, e19]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
